-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S16x10 .f32) (main_arg6 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x10 .f32 := Host.absf main_arg5
  let main_cst_6 : FVec F S_ .f32 := constant S_ .f32 0x7F800000#32
  let main_v20 : FVec F S16x10 .f32 := broadcastInDim S16x10 ![] bcast_S_S16x10 main_cst_6
  let main_v21 : IVec S16x10 1 := cmpf .olt main_v19 main_v20
  let main_c_7 : IVec S_ 1 := constantI S_ 1 1#1
  let main_v22 : IVec S_ 1 := (fun x v => Host.reduce IntOp.andi x v reducesTo_S16x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x10 .f32) (main_arg6 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x10 : Shape := ⟨2, ![100000, 10]⟩
abbrev S10000x16 : Shape := ⟨2, ![10000, 16]⟩
abbrev S10000x10 : Shape := ⟨2, ![10000, 10]⟩
abbrev S3300000x10 : Shape := ⟨2, ![3300000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 90
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S100000x10, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x10, .f32⟩
  | .hbm, ⟨80, _⟩ => ⟨S3300000x10, .f32⟩
  | .hbm, ⟨81, _⟩ => ⟨S3300000x10, .f32⟩
  | .hbm, ⟨82, _⟩ => ⟨S_, .f32⟩
  | .hbm, ⟨83, _⟩ => ⟨S100000x10, .f32⟩
  | .hbm, ⟨84, _⟩ => ⟨S3300000x1, .i32⟩
  | .hbm, ⟨85, _⟩ => ⟨S100000x10, .f32⟩
  | .hbm, ⟨86, _⟩ => ⟨S1x10, .f32⟩
  | .hbm, ⟨87, _⟩ => ⟨S100000x10, .f32⟩
  | .hbm, ⟨88, _⟩ => ⟨S100000x10, .f32⟩
  | .hbm, ⟨89, _⟩ => ⟨S100000x10, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x10, .f32⟩
  | .local _ .vmem, ⟨8, _⟩ => ⟨S10000x10, .f32⟩
  | .local _ .vmem, ⟨9, _⟩ => ⟨S10000x10, .f32⟩
  | .local _ .vmem, ⟨10, _⟩ => ⟨S10000x10, .f32⟩
  | .local _ .vmem, ⟨11, _⟩ => ⟨S10000x10, .f32⟩
  | .local _ .vmem, ⟨12, _⟩ => ⟨S10000x10, .f32⟩
  | .local _ .vmem, ⟨13, _⟩ => ⟨S10000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x10_S16x10_0_0 : ∀ a, (![0, 0] : Fin 2 → Nat) a + S16x10.size a ≤ S16x10.size a
  h_S16x10 : 0 < S16x10.numel
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  shapeCasts_S10000x10_S10000x10 : S10000x10.ShapeCasts S10000x10
  reduces_S10000x10_S10000 : S10000x10.Reduces [1] S10000
  shapeCasts_S10000_S10000x1 : S10000.ShapeCasts S10000x1
  broadcasts_S10000x1_S10000x10 : S10000x1.Broadcasts S10000x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x10_S10000x10_1_0_0_1_n_n_wf : DotDims.WF S10000x16 S16x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x10.size a ≤ S16x10.size a
  hwx1_1 : ∀ i : grid1.Coords, EltTy.bits .f32 = 32 ∨ (Rect.block (s := S16x10) S16x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x10.size a ≤ S100000x10.size a
  hwx1_2 : ∀ i : grid1.Coords, EltTy.bits .f32 = 32 ∨ (Rect.block (s := S100000x10) S10000x10.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x10.size a ≤ S100000x10.size a
  hwx2_1 : ∀ i : grid2.Coords, EltTy.bits .f32 = 32 ∨ (Rect.block (s := S100000x10) S10000x10.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10000x10.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x10, .f32⟩
  | .hbm, ⟨6, _⟩ => ⟨S10, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x10, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x10, .f32⟩
  | .hbm, ⟨83, _⟩ => ⟨S3300000x10, .f32⟩
  | .hbm, ⟨84, _⟩ => ⟨S3300000x10, .f32⟩
  | .hbm, ⟨85, _⟩ => ⟨S_, .f32⟩
  | .hbm, ⟨86, _⟩ => ⟨S100000x10, .f32⟩
  | .hbm, ⟨87, _⟩ => ⟨S3300000x1, .i32⟩
  | .hbm, ⟨88, _⟩ => ⟨S100000x10, .f32⟩
  | .hbm, ⟨89, _⟩ => ⟨S1x10, .f32⟩
  | .hbm, ⟨90, _⟩ => ⟨S100000x10, .f32⟩
  | .hbm, ⟨91, _⟩ => ⟨S100000x10, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x10, .f32⟩
  | .hbm, ⟨99, _⟩ => ⟨S100000x10, .f32⟩
  | .hbm, ⟨100, _⟩ => ⟨S100000x10, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x10, .f32⟩
  | .hbm, ⟨106, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The kernel program's run with its two results named.

  @main is eight segments: stretches of host operations and three pipelined regions. The buffer contents at each
  boundary are a fold from the launch memory: a stretch applies its operations' functions, a region leaves each of
  its arrays at what its write-backs fold to and every other buffer as it found it. Every weakly fair execution ends
  with each unscoped buffer at the last boundary's contents; read at the two result buffers this names the results,
  and read at the argument buffers it gives them back as launched.
-/
import proofs.«104175_j59768764891999_1_alg».proof.Proof.Gen.KernelIdeal.Frame

set_option maxRecDepth 16384

noncomputable section

namespace Cert.KernelIdeal.LastRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two result buffers end at the last boundary's
    contents and the seven argument buffers as launched. -/
theorem run_last : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.LastRun

end
-- ==== Proof.KernelStretch.lean ====
/-
  The kernel program's stretches of host operations, read against the reference's stages.

  Both programs are the same graph-convolution network around different dense cores, and the host operations around the
  kernel's three regions are, line for line, the reference's own: the edge lists with self-loops appended, the degree by
  scatter-add, the symmetric normalisation, and per layer the gather of rows, the scaling by the edge norm, the
  scatter-add and the bias. Each stretch is read from an arbitrary valuation of the buffers: a buffer the stretch writes
  holds the operations' composed function of the buffers it reads, and when those hold the reference's stage of the
  argument arrays, so does the result (the two programs' dimension records are equal by computation); a buffer the
  stretch does not write keeps its contents.
-/
import proofs.«104175_j59768764891999_1_alg».proof.Proof.Gen.KernelIdeal.Launch
import proofs.«104175_j59768764891999_1_alg».proof.Proof.RefRead
import Idealize.ShloMosaic.Lib.StableHlo.Run

set_option maxRecDepth 16384

noncomputable section

namespace Cert.KernelIdeal.Stretch

open Cert.KernelIdeal Cert.KernelIdeal.Gen Cert.ReferenceIdeal.ReadP
open Idealize.ShloMosaic Idealize.ShloMosaic.TcCoe Idealize.SL.Sem Idealize.ShloMosaic.StableHlo

variable (Wv : Valuation τ sig (Elt Ideal))
variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

/-! ## The first stretch: edge lists with self-loops, edge weights with ones, the degree, its sign test and inverse root -/

/-- The source list with the self-loops appended. -/
theorem s0_v3 (h1 : Wv (Proc.devRef .tc main_arg1) = E) :
    after (hostOps0 (F := Ideal)) Wv (Proc.devRef .tc main_v3) = val_main_v3 (F := Ideal) E := by
  after_results
  rw [h1]
  rfl
/-- The target list with the self-loops appended. -/
theorem s0_v6 (h1 : Wv (Proc.devRef .tc main_arg1) = E) :
    after (hostOps0 (F := Ideal)) Wv (Proc.devRef .tc main_v6) = val_main_v6 (F := Ideal) E := by
  after_results
  rw [h1]
  rfl
/-- The edge weights with a one per self-loop appended. -/
theorem s0_v8 (h2 : Wv (Proc.devRef .tc main_arg2) = EW) :
    after (hostOps0 (F := Ideal)) Wv (Proc.devRef .tc main_v8) = val_main_v8 (F := Ideal) EW := by
  after_results
  rw [h2]
  rfl
/-- Where the degree is positive. -/
theorem s0_v13 (h1 : Wv (Proc.devRef .tc main_arg1) = E) (h2 : Wv (Proc.devRef .tc main_arg2) = EW) :
    after (hostOps0 (F := Ideal)) Wv (Proc.devRef .tc main_v13) = val_main_v13 (F := Ideal) E EW := by
  after_results
  rw [h1, h2]
  rfl
/-- The inverse square root of the degree. -/
theorem s0_v14 (h1 : Wv (Proc.devRef .tc main_arg1) = E) (h2 : Wv (Proc.devRef .tc main_arg2) = EW) :
    after (hostOps0 (F := Ideal)) Wv (Proc.devRef .tc main_v14) = val_main_v14 (F := Ideal) E EW := by
  after_results
  rw [h1, h2]
  rfl
/-- The zero that replaces it where the degree is not positive. -/
theorem s0_cst2  :
    after (hostOps0 (F := Ideal)) Wv (Proc.devRef .tc main_cst_2) = val_main_cst_2 (F := Ideal) := by
  after_results
  rfl
theorem k0_arg0 : after (hostOps0 (F := Ideal)) Wv (Proc.devRef .tc main_arg0) = Wv (Proc.devRef .tc main_arg0) := by
  after_results_simp
theorem k0_arg3 : after (hostOps0 (F := Ideal)) Wv (Proc.devRef .tc main_arg3) = Wv (Proc.devRef .tc main_arg3) := by
  after_results_simp
theorem k0_arg4 : after (hostOps0 (F := Ideal)) Wv (Proc.devRef .tc main_arg4) = Wv (Proc.devRef .tc main_arg4) := by
  after_results_simp
theorem k0_arg5 : after (hostOps0 (F := Ideal)) Wv (Proc.devRef .tc main_arg5) = Wv (Proc.devRef .tc main_arg5) := by
  after_results_simp
theorem k0_arg6 : after (hostOps0 (F := Ideal)) Wv (Proc.devRef .tc main_arg6) = Wv (Proc.devRef .tc main_arg6) := by
  after_results_simp

/-! ## The second stretch: the inverse root where the degree is positive, zero elsewhere

The three operations of this stretch name their buffers through typed references, which transport a value between the
buffer's own type and the operation's; for a literal buffer the two types are the same and the transport is the identity. -/

theorem ofBuf_toBuf {T : BufTy} (x : TRef sig T) (v : T.Contents (Elt Ideal)) : x.ofBuf (x.toBuf v) = v := by
  obtain ⟨r, h, _, _⟩ := x
  subst h
  rfl
theorem of_v13 (v : (⟨S100000, .i1⟩ : BufTy).Contents (Elt Ideal)) :
    (TRef.of (sig := sig) (T := ⟨S100000, .i1⟩) main_v13).ofBuf (Val := Elt Ideal) v = v := rfl
theorem of_v14 (v : (⟨S100000, .f32⟩ : BufTy).Contents (Elt Ideal)) :
    (TRef.of (sig := sig) (T := ⟨S100000, .f32⟩) main_v14).ofBuf (Val := Elt Ideal) v = v := rfl
theorem of_cst2 (v : (⟨S_, .f32⟩ : BufTy).Contents (Elt Ideal)) :
    (TRef.of (sig := sig) (T := ⟨S_, .f32⟩) main_cst_2).ofBuf (Val := Elt Ideal) v = v := rfl
theorem to_v15 (v : (⟨S100000, .f32⟩ : BufTy).Contents (Elt Ideal)) :
    (TRef.of (sig := sig) (T := ⟨S100000, .f32⟩) main_v15).toBuf (Val := Elt Ideal) v = v := rfl

/-- The guarded inverse root of the degree. -/
theorem s01_v15 (h13 : Wv (Proc.devRef .tc main_v13) = val_main_v13 (F := Ideal) E EW) (h14 : Wv (Proc.devRef .tc main_v14) = val_main_v14 (F := Ideal) E EW) (hc : Wv (Proc.devRef .tc main_cst_2) = val_main_cst_2 (F := Ideal)) :
    after (hostOps0_1 (F := Ideal)) Wv (Proc.devRef .tc main_v15) = val_main_v15 (F := Ideal) E EW := by
  after_results_simp
  rw [h13, h14, hc, ofBuf_toBuf, ofBuf_toBuf, of_v13, of_v14, of_cst2, to_v15]
  rfl
theorem k01_v3 : after (hostOps0_1 (F := Ideal)) Wv (Proc.devRef .tc main_v3) = Wv (Proc.devRef .tc main_v3) := by
  after_results_simp
theorem k01_v6 : after (hostOps0_1 (F := Ideal)) Wv (Proc.devRef .tc main_v6) = Wv (Proc.devRef .tc main_v6) := by
  after_results_simp
theorem k01_v8 : after (hostOps0_1 (F := Ideal)) Wv (Proc.devRef .tc main_v8) = Wv (Proc.devRef .tc main_v8) := by
  after_results_simp
theorem k01_arg0 : after (hostOps0_1 (F := Ideal)) Wv (Proc.devRef .tc main_arg0) = Wv (Proc.devRef .tc main_arg0) := by
  after_results_simp
theorem k01_arg3 : after (hostOps0_1 (F := Ideal)) Wv (Proc.devRef .tc main_arg3) = Wv (Proc.devRef .tc main_arg3) := by
  after_results_simp
theorem k01_arg4 : after (hostOps0_1 (F := Ideal)) Wv (Proc.devRef .tc main_arg4) = Wv (Proc.devRef .tc main_arg4) := by
  after_results_simp
theorem k01_arg5 : after (hostOps0_1 (F := Ideal)) Wv (Proc.devRef .tc main_arg5) = Wv (Proc.devRef .tc main_arg5) := by
  after_results_simp
theorem k01_arg6 : after (hostOps0_1 (F := Ideal)) Wv (Proc.devRef .tc main_arg6) = Wv (Proc.devRef .tc main_arg6) := by
  after_results_simp

/-! ## The third stretch: the edge norm, the guarded inverse root at the source times the weight times that at the target -/

/-- The edge norm. -/
theorem s02_v31 (h3 : Wv (Proc.devRef .tc main_v3) = val_main_v3 (F := Ideal) E) (h6 : Wv (Proc.devRef .tc main_v6) = val_main_v6 (F := Ideal) E) (h8 : Wv (Proc.devRef .tc main_v8) = val_main_v8 (F := Ideal) EW) (h15 : Wv (Proc.devRef .tc main_v15) = val_main_v15 (F := Ideal) E EW) :
    after (hostOps0_2 (F := Ideal)) Wv (Proc.devRef .tc main_v31) = val_main_v31 (F := Ideal) E EW := by
  after_results_simp
  rw [h3, h6, h8, h15]
  rfl
theorem k02_v3 : after (hostOps0_2 (F := Ideal)) Wv (Proc.devRef .tc main_v3) = Wv (Proc.devRef .tc main_v3) := by
  after_results_simp
theorem k02_v6 : after (hostOps0_2 (F := Ideal)) Wv (Proc.devRef .tc main_v6) = Wv (Proc.devRef .tc main_v6) := by
  after_results_simp
theorem k02_arg0 : after (hostOps0_2 (F := Ideal)) Wv (Proc.devRef .tc main_arg0) = Wv (Proc.devRef .tc main_arg0) := by
  after_results_simp
theorem k02_arg3 : after (hostOps0_2 (F := Ideal)) Wv (Proc.devRef .tc main_arg3) = Wv (Proc.devRef .tc main_arg3) := by
  after_results_simp
theorem k02_arg4 : after (hostOps0_2 (F := Ideal)) Wv (Proc.devRef .tc main_arg4) = Wv (Proc.devRef .tc main_arg4) := by
  after_results_simp
theorem k02_arg5 : after (hostOps0_2 (F := Ideal)) Wv (Proc.devRef .tc main_arg5) = Wv (Proc.devRef .tc main_arg5) := by
  after_results_simp
theorem k02_arg6 : after (hostOps0_2 (F := Ideal)) Wv (Proc.devRef .tc main_arg6) = Wv (Proc.devRef .tc main_arg6) := by
  after_results_simp

/-! ## After the first region: the first layer's aggregation and bias, applied to whatever the region left -/

/-- When the region left the reference's first product, the stretch leaves the reference's first layer. -/
theorem s1_v48 (h32 : Wv (Proc.devRef .tc main_v32) = val_main_v32 (F := Ideal) X W1) (h31 : Wv (Proc.devRef .tc main_v31) = val_main_v31 (F := Ideal) E EW) (h3 : Wv (Proc.devRef .tc main_v3) = val_main_v3 (F := Ideal) E) (h6 : Wv (Proc.devRef .tc main_v6) = val_main_v6 (F := Ideal) E) (h4 : Wv (Proc.devRef .tc main_arg4) = B1) :
    after (hostOps1 (F := Ideal)) Wv (Proc.devRef .tc main_v48) = val_main_v48 (F := Ideal) X E EW W1 B1 := by
  after_results_simp
  rw [h32, h31, h3, h6, h4]
  rfl
theorem k1_v31 : after (hostOps1 (F := Ideal)) Wv (Proc.devRef .tc main_v31) = Wv (Proc.devRef .tc main_v31) := by
  after_results_simp
theorem k1_v3 : after (hostOps1 (F := Ideal)) Wv (Proc.devRef .tc main_v3) = Wv (Proc.devRef .tc main_v3) := by
  after_results_simp
theorem k1_v6 : after (hostOps1 (F := Ideal)) Wv (Proc.devRef .tc main_v6) = Wv (Proc.devRef .tc main_v6) := by
  after_results_simp
theorem k1_arg5 : after (hostOps1 (F := Ideal)) Wv (Proc.devRef .tc main_arg5) = Wv (Proc.devRef .tc main_arg5) := by
  after_results_simp
theorem k1_arg6 : after (hostOps1 (F := Ideal)) Wv (Proc.devRef .tc main_arg6) = Wv (Proc.devRef .tc main_arg6) := by
  after_results_simp

/-! ## After the second region: the second layer's aggregation and bias -/

/-- When the region left the reference's second product, the stretch leaves the reference's logits. -/
theorem s2_v65 (h49 : Wv (Proc.devRef .tc main_v49) = val_main_v50 (F := Ideal) X E EW W1 B1 W2) (h31 : Wv (Proc.devRef .tc main_v31) = val_main_v31 (F := Ideal) E EW) (h3 : Wv (Proc.devRef .tc main_v3) = val_main_v3 (F := Ideal) E) (h6 : Wv (Proc.devRef .tc main_v6) = val_main_v6 (F := Ideal) E) (h6' : Wv (Proc.devRef .tc main_arg6) = B2) :
    after (hostOps2 (F := Ideal)) Wv (Proc.devRef .tc main_v65) = val_main_v66 (F := Ideal) X E EW W1 B1 W2 B2 := by
  after_results_simp
  rw [h49, h31, h3, h6, h6']
  rfl
theorem k2_v48 : after (hostOps2 (F := Ideal)) Wv (Proc.devRef .tc main_v48) = Wv (Proc.devRef .tc main_v48) := by
  after_results_simp

end Cert.KernelIdeal.Stretch

end
-- ==== Proof.Spec.lean ====
/-
  The four whole-array functions the two programs are compared through, on the extended reals.

  `lin X W` is the matrix product, entry (p, q) the sum over k of X (p, k) · W (k, q); `relu A` is the entrywise maximum
  with zero; `rowMax A p` is the supremum of row p; `lsm A` is the row-wise log-softmax in the shifted form both programs
  use: with s = A (p, q) − rowMax A p, the entry is s − log Σₖ exp (A (p, k) − rowMax A p).
  Entry (p, q) of `lin X W` reads row p of X only, and entry (p, q) of `lsm A` reads row p of A only: this is what lets
  a program that handles a block of rows at a time compute the same arrays.
-/
import Idealize.ShloMosaic.PureOps.Ideal
import Idealize.ShloMosaic.Lib.ValueIdx

noncomputable section

namespace Cert.Spec

open Idealize.ShloMosaic Idealize.ShloMosaic.ValueIdx

/-- The matrix product: entry `(p, q)` is `∑ k, X (p, k) * W (k, q)`. -/
def lin {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- The entrywise maximum with zero. -/
def relu {S : Shape} (A : S.Idx → EReal) : S.Idx → EReal := fun i => max (A i) 0

/-- The supremum of row `p`. -/
def rowMax {M N : ℕ} (A : (⟨2, ![M, N]⟩ : Shape).Idx → EReal) (p : Fin M) : EReal :=
  Finset.univ.sup fun k : Fin N => A (ix2 p k)

/-- The row-wise log-softmax, shifted by the row's supremum. -/
def lsm {M N : ℕ} (A : (⟨2, ![M, N]⟩ : Shape).Idx → EReal) : (⟨2, ![M, N]⟩ : Shape).Idx → EReal :=
  fun i => (A i - rowMax A (i 0)) - Ideal.log (∑ k : Fin N, Ideal.exp (A (ix2 (i 0) k) - rowMax A (i 0)))

/-- An entry of the product depends on one row of the left operand and one column of the right: if row `y 0` of `x0` is
    row `i 0` of `X` and column `y 1` of `x1` is column `i 1` of `W`, the entries agree. -/
theorem lin_row {tm M K N N' : ℕ} (x0 : (⟨2, ![tm, K]⟩ : Shape).Idx → EReal) (x1 : (⟨2, ![K, N']⟩ : Shape).Idx → EReal)
    (X : (⟨2, ![M, K]⟩ : Shape).Idx → EReal) (W : (⟨2, ![K, N]⟩ : Shape).Idx → EReal)
    (y : (⟨2, ![tm, N']⟩ : Shape).Idx) (i : (⟨2, ![M, N]⟩ : Shape).Idx)
    (hrow : ∀ k : Fin K, x0 (ix2 (y 0) k) = X (ix2 (i 0) k))
    (hcol : ∀ k : Fin K, x1 (ix2 k (y 1)) = W (ix2 k (i 1))) :
    lin x0 x1 y = lin X W i := by
  unfold lin
  exact Finset.sum_congr rfl fun k _ => by rw [hrow k, hcol k]

/-- An entry of the log-softmax depends on one row: if row `y 0` of `x0` is row `i 0` of `A`, and `y`, `i` name the same
    column, the entries agree. -/
theorem lsm_row {tm M N : ℕ} (x0 : (⟨2, ![tm, N]⟩ : Shape).Idx → EReal) (A : (⟨2, ![M, N]⟩ : Shape).Idx → EReal)
    (y : (⟨2, ![tm, N]⟩ : Shape).Idx) (i : (⟨2, ![M, N]⟩ : Shape).Idx)
    (hrow : ∀ k : Fin N, x0 (ix2 (y 0) k) = A (ix2 (i 0) k)) (hcol : (y 1).val = (i 1).val) :
    lsm x0 y = lsm A i := by
  have hmax : rowMax x0 (y 0) = rowMax A (i 0) := by
    unfold rowMax
    exact Finset.sup_congr rfl fun k _ => hrow k
  have hy : x0 y = A i := by
    have e1 : y = ix2 (y 0) (y 1) := eq_ix2 y
    have e2 : i = ix2 (i 0) ⟨(y 1).val, by rw [hcol]; exact (i 1).isLt⟩ := by
      funext a
      match a with
      | ⟨0, _⟩ => rfl
      | ⟨1, _⟩ => exact Fin.ext hcol.symm
    rw [e1, e2]
    exact hrow (y 1)
  unfold lsm
  rw [hmax, hy]
  congr 2
  exact Finset.sum_congr rfl fun k _ => by rw [hrow k]

end Cert.Spec

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«104175_j59768764891999_1_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.Region0.lean ====
/-
  Region 0: one block of 5000 rows of X · W per grid point, twenty points.

  At point t the body multiplies rows 5000 t … 5000 t + 4999 of X by the whole of W into a zero accumulator and stores
  the 5000 × 16 product; the write-back puts it at rows 5000 t … of the result. Rounding an operand to a narrower format
  is the identity on the extended reals and a product into zero is the plain contraction sum, so the block is the
  matching block of the whole product (an entry of a product reads one row of the left operand), and the twenty blocks
  tile the 100000 rows: the result array ends at `lin X W`, whatever the buffers held when the region was entered.
-/
import proofs.«104175_j59768764891999_1_alg».proof.Proof.Gen.KernelIdeal.Frame
import proofs.«104175_j59768764891999_1_alg».proof.Proof.Spec
import proofs.«104175_j59768764891999_1_alg».proof.Proof.LibBlockMatmul
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay (x0 : Vec Ideal S5000x512 .f32) (x1 : Vec Ideal S512x16 .f32) :
    k0_pay1 (F := Ideal) x0 x1 = Cert.Spec.lin (M := 5000) (K := 512) (N := 16) x0 x1 := by
  funext j
  unfold k0_pay1
  exact Cert.BlockMatmul.matmul_zero_fin dot_S5000x512_S512x16_S5000x16_1_0_0_1_n_n rfl rfl
    (fun _ _ => rfl) (fun _ _ => rfl) (fun _ _ => rfl) (fun _ _ => rfl) none _ _ j

/-- The printed index maps over the grid: the row blocks of X and of the result move with the point, W stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `5000 t + p` of the array. -/
theorem blkX (c : Dev nD) (t : Fin cfg0.N) (p : Fin 5000) (k : Fin 512) (r : Fin 100000)
    (hr : r.val = 5000 * t.val + p.val) :
    (iblk0 V c 0 t : S5000x512.Idx → EReal) (ix2 p k) = (V c main_arg0 : S100000x512.Idx → EReal) (ix2 r k) := by
  obtain ⟨e0, e1, -⟩ := idx t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- The right operand's block is the whole array at every point. -/
theorem blkW (c : Dev nD) (t : Fin cfg0.N) (k : Fin 512) (q : Fin 16) :
    (iblk0 V c 1 t : S512x16.Idx → EReal) (ix2 k q) = (V c main_arg3 : S512x16.Idx → EReal) (ix2 k q) := by
  obtain ⟨-, -, e2, e3, -⟩ := idx t
  unfold iblk0
  rw [View.read_apply]
  show V c main_arg3 _ = V c main_arg3 _
  congr 1
  funext a
  apply Fin.ext
  match a with
  | ⟨0, _⟩ => show win0_1.index t (0 : Fin 2) * 512 + 1 * k.val = k.val; rw [e2]; omega
  | ⟨1, _⟩ => show win0_1.index t (1 : Fin 2) * 16 + 1 * q.val = q.val; rw [e3]; omega

/-- What point `t` writes back is block `t` of the whole product. -/
theorem flushed (c : Dev nD) (t : Fin cfg0.N) :
    (dat0 V c).flushed 2 t = ((cfg0.win 2).blk t).view.read (Elt Ideal)
      (Cert.Spec.lin (M := 100000) (K := 512) (N := 16) (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  funext j
  obtain ⟨-, -, -, -, e4, e5⟩ := idx t
  have hj0 : (j 0).val < 5000 := (j 0).isLt
  have hN : cfg0.N = 20 := N_0
  have ht : t.val < 20 := hN ▸ t.isLt
  refine (congrFun (pay _ _) j).trans ?_
  rw [View.read_apply]
  refine Cert.Spec.lin_row _ _ _ _ j _ (fun k => ?_) (fun k => ?_)
  · refine blkX V c t (j 0) k _ ?_
    show win0_2.index t (0 : Fin 2) * 5000 + 1 * (j 0).val = 5000 * t.val + (j 0).val
    rw [e4]; omega
  · refine (blkW V c t k (j 1)).trans ?_
    congr 1
    funext a
    apply Fin.ext
    match a with
    | ⟨0, _⟩ => rfl
    | ⟨1, _⟩ => show (j 1).val = win0_2.index t (1 : Fin 2) * 16 + 1 * (j 1).val; rw [e5]; omega

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v32).slice (win0_2.rect t)).set ↔ _
  rw [View.set_slice_whole, Rect.mem_set_unit]
  exact Iff.rfl

/-- The twenty row blocks tile the array: row `r` is in the block of point `r / 5000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have hlt : (i 0).val / 5000 < cfg0.N := by rw [hN]; omega
  refine ⟨⟨(i 0).val / 5000, hlt⟩, flush0_2 _, ?_⟩
  rw [mem_blk]
  obtain ⟨-, -, -, -, e4, e5⟩ := idx ⟨(i 0).val / 5000, hlt⟩
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 16 ≤ (i 1).val
      ∧ (i 1).val < win0_2.index ⟨(i 0).val / 5000, hlt⟩ (1 : Fin 2) * 16 + 16
    rw [e5]; omega

/-- The result array after the region is the whole product of the two arrays as the region found them. -/
theorem final (c : Dev nD) :
    (dat0 V c).arrAt 2 cfg0.N
      = Cert.Spec.lin (M := 100000) (K := 512) (N := 16) (V c main_arg0) (V c main_arg3) :=
  (dat0 V c).arrAt_eq_of_cover 2 _ (fun t _ => flushed V c t) cover

end Cert.KernelIdeal.Region0

end
-- ==== Proof.Region1.lean ====
/-
  Region 1: one block of 10000 rows of relu(A) · W per grid point, ten points.

  At point t the body takes rows 10000 t … 10000 t + 9999 of A, replaces each entry by its maximum with zero, multiplies
  by the whole of W into a zero accumulator and stores the 10000 × 10 product, which the write-back puts at the same rows
  of the result. The maximum with zero is entrywise, so it commutes with taking a block of rows; an entry of a product
  reads one row of the left operand; the ten blocks tile the 100000 rows. So the result array ends at
  `lin (relu A) W`, whatever the buffers held when the region was entered.
-/
import proofs.«104175_j59768764891999_1_alg».proof.Proof.Gen.KernelIdeal.Frame
import proofs.«104175_j59768764891999_1_alg».proof.Proof.Spec
import proofs.«104175_j59768764891999_1_alg».proof.Proof.LibBlockMatmul
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of the first loaded block, floored at zero, with the second. -/
theorem pay (x0 : Vec Ideal S10000x16 .f32) (x1 : Vec Ideal S16x10 .f32) :
    k1_pay1 (F := Ideal) x0 x1
      = Cert.Spec.lin (M := 10000) (K := 16) (N := 10) (Cert.Spec.relu (S := S10000x16) x0) x1 := by
  funext j
  unfold k1_pay1
  refine (Cert.BlockMatmul.matmul_zero_fin dot_S10000x16_S16x10_S10000x10_1_0_0_1_n_n rfl rfl
    (fun _ _ => rfl) (fun _ _ => rfl) (fun _ _ => rfl) (fun _ _ => rfl) none _ _ j).trans ?_
  unfold Cert.Spec.lin Cert.Spec.relu
  refine Finset.sum_congr rfl fun k _ => ?_
  congr 1
  show max (shapeCast S10000x16 x0 shapeCasts_S10000x16_S10000x16 (ix2 (j 0) k)) (Ideal.ofBits .f32 0x00000000#32)
    = max (x0 (ix2 (j 0) k)) 0
  rw [shapeCast_self, Ideal.ofBits_zero_f32]

/-- The printed index maps over the grid: the row blocks of A and of the result move with the point, W stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left operand's block at point `t` is row `10000 t + p` of the array. -/
theorem blkA (c : Dev nD) (t : Fin cfg1.N) (p : Fin 10000) (k : Fin 16) (r : Fin 100000)
    (hr : r.val = 10000 * t.val + p.val) :
    (iblk1 V c 0 t : S10000x16.Idx → EReal) (ix2 p k) = (V c main_v48 : S100000x16.Idx → EReal) (ix2 r k) := by
  obtain ⟨e0, e1, -⟩ := idx t
  unfold iblk1
  rw [View.read_apply]
  show V c main_v48 _ = V c main_v48 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 16 + 1 * k.val = k.val; rw [e1]; omega

/-- The right operand's block is the whole array at every point. -/
theorem blkW (c : Dev nD) (t : Fin cfg1.N) (k : Fin 16) (q : Fin 10) :
    (iblk1 V c 1 t : S16x10.Idx → EReal) (ix2 k q) = (V c main_arg5 : S16x10.Idx → EReal) (ix2 k q) := by
  obtain ⟨-, -, e2, e3, -⟩ := idx t
  unfold iblk1
  rw [View.read_apply]
  show V c main_arg5 _ = V c main_arg5 _
  congr 1
  funext a
  apply Fin.ext
  match a with
  | ⟨0, _⟩ => show win1_1.index t (0 : Fin 2) * 16 + 1 * k.val = k.val; rw [e2]; omega
  | ⟨1, _⟩ => show win1_1.index t (1 : Fin 2) * 10 + 1 * q.val = q.val; rw [e3]; omega

/-- What point `t` writes back is block `t` of the whole product. -/
theorem flushed (c : Dev nD) (t : Fin cfg1.N) :
    (dat1 V c).flushed 2 t = ((cfg1.win 2).blk t).view.read (Elt Ideal)
      (Cert.Spec.lin (M := 100000) (K := 16) (N := 10) (Cert.Spec.relu (S := S100000x16) (V c main_v48)) (V c main_arg5)) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x10) hz]
  funext j
  obtain ⟨-, -, -, -, e4, e5⟩ := idx t
  have hj0 : (j 0).val < 10000 := (j 0).isLt
  have hN : cfg1.N = 10 := N_1
  have ht : t.val < 10 := hN ▸ t.isLt
  refine (congrFun (pay _ _) j).trans ?_
  rw [View.read_apply]
  refine Cert.Spec.lin_row _ _ _ _ j _ (fun k => ?_) (fun k => ?_)
  · unfold Cert.Spec.relu
    refine congrArg (fun u : EReal => max u 0) (blkA V c t (j 0) k _ ?_)
    show win1_2.index t (0 : Fin 2) * 10000 + 1 * (j 0).val = 10000 * t.val + (j 0).val
    rw [e4]; omega
  · refine (blkW V c t k (j 1)).trans ?_
    congr 1
    funext a
    apply Fin.ext
    match a with
    | ⟨0, _⟩ => rfl
    | ⟨1, _⟩ => show (j 1).val = win1_2.index t (1 : Fin 2) * 10 + 1 * (j 1).val; rw [e5]; omega

/-- An index of the result array is in point `t`'s block iff each coordinate is in the block's range on its axis. -/
theorem mem_blk (t : Fin cfg1.N) (i : S100000x10.Idx) :
    i ∈ ((cfg1.win 2).blk t).view.set ↔ ∀ a : Fin 2, win1_2.index t a * S10000x10.size a ≤ (i a).val
      ∧ (i a).val < win1_2.index t a * S10000x10.size a + S10000x10.size a := by
  show i ∈ ((View.whole main_v49).slice (win1_2.rect t)).set ↔ _
  rw [View.set_slice_whole, Rect.mem_set_unit]
  exact Iff.rfl

/-- The ten row blocks tile the array: row `r` is in the block of point `r / 10000`. -/
theorem cover (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  have hN : cfg1.N = 10 := N_1
  have hlt : (i 0).val / 10000 < cfg1.N := by rw [hN]; omega
  refine ⟨⟨(i 0).val / 10000, hlt⟩, flush1_2 _, ?_⟩
  rw [mem_blk]
  obtain ⟨-, -, -, -, e4, e5⟩ := idx ⟨(i 0).val / 10000, hlt⟩
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 10 ≤ (i 1).val
      ∧ (i 1).val < win1_2.index ⟨(i 0).val / 10000, hlt⟩ (1 : Fin 2) * 10 + 10
    rw [e5]; omega

/-- The result array after the region is the whole product of the floored array with W, as the region found them. -/
theorem final (c : Dev nD) :
    (dat1 V c).arrAt 2 cfg1.N
      = Cert.Spec.lin (M := 100000) (K := 16) (N := 10) (Cert.Spec.relu (S := S100000x16) (V c main_v48)) (V c main_arg5) :=
  (dat1 V c).arrAt_eq_of_cover 2 _ (fun t _ => flushed V c t) cover

end Cert.KernelIdeal.Region1

end
-- ==== Proof.LibLaneMax.lean ====
/-
  Maxima on the extended reals, as suprema. At the exact values a float maximum is `max` on the extended reals, the
  single-precision word 0xFF800000 is -∞, the bottom element, and a finite supremum is by definition the fold of the
  binary supremum from the bottom element. So a lane maximum over one axis that starts from the -∞ word, read at an
  index, is the supremum over that axis's coordinates; and a supremum over the naturals below `n` is the supremum
  over `Fin n`. Generic in the shapes and the axis.
-/
import Idealize.ShloMosaic.PureOps.Ideal
import Idealize.ShloMosaic.PureOps.Ideal.Laws

noncomputable section

namespace Cert.LibLaneMax

open Idealize.ShloMosaic

/-- The word 0xFF800000 is -∞. -/
theorem ninf : Ideal.ofBits .f32 0xFF800000#32 = (⊥ : EReal) := by simp [Ideal.ofBits, Ideal.ieee]

/-- A fold of `max` from -∞ over a finite set is the supremum over it. -/
theorem fold_max_sup {ι : Type} (s : Finset ι) (g : ι → EReal) : s.fold max ⊥ g = s.sup g := rfl

/-- A lane maximum over one axis from the -∞ word, read at an index: the supremum over that axis's coordinates of the
    source at the index with the coordinate put back in. -/
theorem max_single {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = Finset.univ.sup fun k : Fin (s.size a) => src (h.lift j k) := by
  rw [Ideal.multiReduction_maximumf_single,
    show (FloatOps.ofBits (F := Ideal) .f32 0xFF800000#32) = (⊥ : EReal) from ninf, fold_max_sup]
  rfl

/-- A supremum over the naturals below `n` is the supremum over `Fin n`. -/
theorem sup_range_eq (n : ℕ) (g : ℕ → EReal) : (Finset.range n).sup g = Finset.univ.sup fun k : Fin n => g k.val :=
  le_antisymm
    (Finset.sup_le fun k hk =>
      Finset.le_sup (f := fun k : Fin n => g k.val) (Finset.mem_univ (⟨k, Finset.mem_range.mp hk⟩ : Fin n)))
    (Finset.sup_le fun k _ => Finset.le_sup (f := g) (Finset.mem_range.mpr k.isLt))

end Cert.LibLaneMax

end
-- ==== Proof.LibLaneSum.lean ====
/-
  A lane sum read at a row.

  Summing an [a, b] array over its second axis onto the zero accumulator gives an [a] vector whose entry p is, at the
  exact values, the sum over k of the entries (p, k): the index the reduction reads for row p and position k is (p, k),
  and at the exact values the reduction is the plain sum whatever its order.
-/
import Idealize.ShloMosaic.Lib.Pipeline.Value
import Idealize.ShloMosaic.Lib.ValueIdx
import Idealize.ShloMosaic.PureOps.Ideal.Laws

noncomputable section

namespace Cert.LibLaneSum

open Idealize.ShloMosaic Idealize.ShloMosaic.ValueIdx

/-- GENERAL LEMMA. The index a reduction over axis 1 of an [a, b] array reads for row `p` and position `k` is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- GENERAL LEMMA. A float sum over axis 1 of an [a, b] array, at the exact values and onto the zero accumulator, is
    at row `p` the sum over `k` of the entries `(p, k)`. The accumulator fact is taken in the form a printed program
    carries it (the zero word equal to itself). -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.Region2.lean ====
/-
  Region 2: the row-wise log-softmax, one block of 10000 rows per grid point, ten points.

  At point t the body takes rows 10000 t … 10000 t + 9999 of A. For each row it forms the supremum of the row (a lane
  maximum from −∞), subtracts it from the row, exponentiates, sums the row (a lane sum from zero), takes the logarithm
  and subtracts it: entry (p, q) is s − log Σₖ exp (A (p, k) − rowMax A p) with s = A (p, q) − rowMax A p. Every step
  reads one row only, so a block of rows of the result is the result of the block of rows; the ten blocks tile the
  100000 rows. So the result array ends at `lsm A`, whatever the buffers held when the region was entered.
-/
import proofs.«104175_j59768764891999_1_alg».proof.Proof.Gen.KernelIdeal.Frame
import proofs.«104175_j59768764891999_1_alg».proof.Proof.Spec
import proofs.«104175_j59768764891999_1_alg».proof.Proof.LibLaneMax
import proofs.«104175_j59768764891999_1_alg».proof.Proof.LibLaneSum
import proofs.«104175_j59768764891999_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A lane maximum over axis 1 of an [a, b] array from −∞, at row `p`, is the supremum of the row. -/
theorem max_axis1_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = Finset.univ.sup fun k : Fin b => src (ix2 p k) :=
  (Cert.LibLaneMax.max_single src h hφ hacc (ix1 p)).trans
    (Finset.sup_congr rfl fun k _ => congrArg src (Cert.LibLaneSum.lift_row h p k))

/-- A row statistic cast to a column and broadcast back over the row reads, at `(p, q)`, the statistic of row `p`. -/
theorem col_apply (v : FVec Ideal S10000 .f32) (p : Fin 10000) (q : Fin 10) :
    broadcastTo S10000x10 (shapeCast S10000x1 v shapeCasts_S10000_S10000x1) broadcasts_S10000x1_S10000x10 (ix2 p q)
      = v (ix1 p) :=
  (Cert.LibKeepdims.broadcastTo_a1_ab_apply _ broadcasts_S10000x1_S10000x10 p q).trans
    (Cert.LibKeepdims.shapeCast_a_a1_apply v shapeCasts_S10000_S10000x1 p 0)

/-- The same with the logarithm taken on the column. -/
theorem col_log_apply (v : FVec Ideal S10000 .f32) (p : Fin 10000) (q : Fin 10) :
    broadcastTo S10000x10 (log (shapeCast S10000x1 v shapeCasts_S10000_S10000x1)) broadcasts_S10000x1_S10000x10 (ix2 p q)
      = Ideal.log (v (ix1 p)) :=
  (Cert.LibKeepdims.broadcastTo_a1_ab_apply _ broadcasts_S10000x1_S10000x10 p q).trans
    (congrArg Ideal.log (Cert.LibKeepdims.shapeCast_a_a1_apply v shapeCasts_S10000_S10000x1 p 0))

/-- The body's stored value is the row-wise log-softmax of its loaded block. -/
theorem pay (x0 : FVec Ideal S10000x10 .f32) :
    k2_pay1 (F := Ideal) x0 = Cert.Spec.lsm (M := 10000) (N := 10) x0 := by
  funext j
  obtain ⟨p, q, rfl⟩ : ∃ (p : Fin 10000) (q : Fin 10), j = ix2 p q := ⟨j 0, j 1, eq_ix2 j⟩
  unfold k2_pay1
  dsimp only
  rw [shapeCast_self x0 shapeCasts_S10000x10_S10000x10]
  -- the row suprema
  have hM : ∀ p' : Fin 10000,
      multiReduction (F := Ideal) .maximumf [1] S10000 x0 0xFF800000#32 reduces_S10000x10_S10000 (.inl rfl) rfl (ix1 p')
        = Cert.Spec.rowMax (M := 10000) (N := 10) x0 p' :=
    fun p' => max_axis1_apply x0 reduces_S10000x10_S10000 (.inl rfl) rfl p'
  -- the shifted block
  have hZ : ∀ (p' : Fin 10000) (q' : Fin 10),
      subf x0 (broadcastTo S10000x10 (shapeCast S10000x1
        (multiReduction (F := Ideal) .maximumf [1] S10000 x0 0xFF800000#32 reduces_S10000x10_S10000 (.inl rfl) rfl)
        shapeCasts_S10000_S10000x1) broadcasts_S10000x1_S10000x10) (ix2 p' q')
        = x0 (ix2 p' q') - Cert.Spec.rowMax (M := 10000) (N := 10) x0 p' := fun p' q' => by
    show x0 (ix2 p' q') - _ = _
    rw [col_apply, hM]
  -- the row sums of the exponentials
  have hS : ∀ p' : Fin 10000,
      multiReduction (F := Ideal) .add [1] S10000 (exp (subf x0 (broadcastTo S10000x10 (shapeCast S10000x1
        (multiReduction (F := Ideal) .maximumf [1] S10000 x0 0xFF800000#32 reduces_S10000x10_S10000 (.inl rfl) rfl)
        shapeCasts_S10000_S10000x1) broadcasts_S10000x1_S10000x10))) 0x00000000#32 reduces_S10000x10_S10000 (.inl rfl) rfl (ix1 p')
        = ∑ k : Fin 10, Ideal.exp (x0 (ix2 p' k) - Cert.Spec.rowMax (M := 10000) (N := 10) x0 p') := fun p' =>
    (Cert.LibLaneSum.sum_axis1_apply _ reduces_S10000x10_S10000 (.inl rfl) rfl p').trans
      (Finset.sum_congr rfl fun k _ => congrArg Ideal.exp (hZ p' k))
  show subf x0 _ (ix2 p q) - _ = _
  rw [col_log_apply, hZ, hS]
  rfl

/-- The printed index maps over the grid: both row blocks move with the point. -/
theorem idx : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row `p` of the operand's block at point `t` is row `10000 t + p` of the array. -/
theorem blkA (c : Dev nD) (t : Fin cfg2.N) (p : Fin 10000) (k : Fin 10) (r : Fin 100000)
    (hr : r.val = 10000 * t.val + p.val) :
    (iblk2 V c 0 t : S10000x10.Idx → EReal) (ix2 p k) = (V c main_v65 : S100000x10.Idx → EReal) (ix2 r k) := by
  obtain ⟨e0, e1, -⟩ := idx t
  unfold iblk2
  rw [View.read_apply]
  show V c main_v65 _ = V c main_v65 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 10 + 1 * k.val = k.val; rw [e1]; omega

/-- What point `t` writes back is block `t` of the whole array's log-softmax. -/
theorem flushed (c : Dev nD) (t : Fin cfg2.N) :
    (dat2 V c).flushed 1 t = ((cfg2.win 1).blk t).view.read (Elt Ideal)
      (Cert.Spec.lsm (M := 100000) (N := 10) (V c main_v65)) := by
  show (cfg2.win 1).cut (grid2.coords t) ((dat2 V c).after 1 t) = _
  rw [after2_1]
  unfold out2_1
  rw [View.canon_unit_zero hz]
  simp only [View.ld_unit_zero (S := S10000x10) hz]
  funext j
  obtain ⟨-, -, e2, e3⟩ := idx t
  have hj0 : (j 0).val < 10000 := (j 0).isLt
  have hN : cfg2.N = 10 := N_2
  have ht : t.val < 10 := hN ▸ t.isLt
  refine (congrFun (pay _) j).trans ?_
  rw [View.read_apply]
  refine Cert.Spec.lsm_row _ _ j _ (fun k => ?_) ?_
  · refine blkA V c t (j 0) k _ ?_
    show win2_1.index t (0 : Fin 2) * 10000 + 1 * (j 0).val = 10000 * t.val + (j 0).val
    rw [e2]; omega
  · show (j 1).val = win2_1.index t (1 : Fin 2) * 10 + 1 * (j 1).val
    rw [e3]; omega

/-- An index of the result array is in point `t`'s block iff each coordinate is in the block's range on its axis. -/
theorem mem_blk (t : Fin cfg2.N) (i : S100000x10.Idx) :
    i ∈ ((cfg2.win 1).blk t).view.set ↔ ∀ a : Fin 2, win2_1.index t a * S10000x10.size a ≤ (i a).val
      ∧ (i a).val < win2_1.index t a * S10000x10.size a + S10000x10.size a := by
  show i ∈ ((View.whole main_v66).slice (win2_1.rect t)).set ↔ _
  rw [View.set_slice_whole, Rect.mem_set_unit]
  exact Iff.rfl

/-- The ten row blocks tile the array: row `r` is in the block of point `r / 10000`. -/
theorem cover (i : S100000x10.Idx) :
    ∃ t : Fin cfg2.N, (cfg2.win 1).flush t = true ∧ i ∈ ((cfg2.win 1).blk t).view.set := by
  have hi0 : (i 0).val < 100000 := (i 0).isLt
  have hi1 : (i 1).val < 10 := (i 1).isLt
  have hN : cfg2.N = 10 := N_2
  have hlt : (i 0).val / 10000 < cfg2.N := by rw [hN]; omega
  refine ⟨⟨(i 0).val / 10000, hlt⟩, flush2_1 _, ?_⟩
  rw [mem_blk]
  obtain ⟨-, -, e2, e3⟩ := idx ⟨(i 0).val / 10000, hlt⟩
  intro a
  match a with
  | ⟨0, _⟩ =>
    show win2_1.index ⟨(i 0).val / 10000, hlt⟩ (0 : Fin 2) * 10000 ≤ (i 0).val
      ∧ (i 0).val < win2_1.index ⟨(i 0).val / 10000, hlt⟩ (0 : Fin 2) * 10000 + 10000
    rw [e2]; show (i 0).val / 10000 * 10000 ≤ (i 0).val ∧ (i 0).val < (i 0).val / 10000 * 10000 + 10000; omega
  | ⟨1, _⟩ =>
    show win2_1.index ⟨(i 0).val / 10000, hlt⟩ (1 : Fin 2) * 10 ≤ (i 1).val
      ∧ (i 1).val < win2_1.index ⟨(i 0).val / 10000, hlt⟩ (1 : Fin 2) * 10 + 10
    rw [e3]; omega

/-- The result array after the region is the log-softmax of the operand array as the region found it. -/
theorem final (c : Dev nD) :
    (dat2 V c).arrAt 1 cfg2.N = Cert.Spec.lsm (M := 100000) (N := 10) (V c main_v65) :=
  (dat2 V c).arrAt_eq_of_cover 1 _ (fun t _ => flushed V c t) cover

end Cert.KernelIdeal.Region2

end
-- ==== Proof.RefProducts.lean ====
/-
  The reference's two dense stages as the specification's products.

  Its first product is `lin X W₁`; its second, taken after the maximum with a zero array, is `lin (relu H) W₂` of the
  first layer's output H. A host product read at an index is the contraction sum; the maximum with a splat of zero is the
  entrywise maximum with zero.
-/
import proofs.«104175_j59768764891999_1_alg».proof.Proof.RefRead
import proofs.«104175_j59768764891999_1_alg».proof.Proof.Spec
import Idealize.ShloMosaic.Lib.ValueIdx
import Idealize.ShloMosaic.PureOps.Ideal.Laws

set_option maxRecDepth 16384

noncomputable section

namespace Cert.ReferenceIdeal.Products

open Cert.ReferenceIdeal Cert.ReferenceIdeal.Gen Cert.ReferenceIdeal.ReadP
open Idealize.ShloMosaic Idealize.ShloMosaic.TcCoe Idealize.ShloMosaic.ValueIdx Idealize.SL.Sem

variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

/-! ## The two products -/

theorem lidx32 (i : S100000x16.Idx) (k : Fin 512) : lidx_main_v32 i k = ix2 (i 0) k :=
  funext fun a => by match a with | ⟨0, _⟩ => rfl | ⟨1, _⟩ => rfl
theorem ridx32 (i : S100000x16.Idx) (k : Fin 512) : ridx_main_v32 i k = ix2 k (i 1) :=
  funext fun a => by match a with | ⟨0, _⟩ => rfl | ⟨1, _⟩ => rfl
theorem lidx50 (i : S100000x10.Idx) (k : Fin 16) : lidx_main_v50 i k = ix2 (i 0) k :=
  funext fun a => by match a with | ⟨0, _⟩ => rfl | ⟨1, _⟩ => rfl
theorem ridx50 (i : S100000x10.Idx) (k : Fin 16) : ridx_main_v50 i k = ix2 k (i 1) :=
  funext fun a => by match a with | ⟨0, _⟩ => rfl | ⟨1, _⟩ => rfl

/-- The first dense stage is the product of the features with the first weight matrix. -/
theorem v32_eq : val_main_v32 (F := Ideal) X W1 = Cert.Spec.lin (M := 100000) (K := 512) (N := 16) X W1 := by
  funext i
  rw [val_main_v32_apply]
  unfold Cert.Spec.lin
  exact Finset.sum_congr rfl fun k _ => by rw [lidx32, ridx32]; rfl

/-- The second dense stage is the product of the first layer's output, floored at zero, with the second weight matrix. -/
theorem v50_eq : val_main_v50 (F := Ideal) X E EW W1 B1 W2
    = Cert.Spec.lin (M := 100000) (K := 16) (N := 10)
        (Cert.Spec.relu (S := S100000x16) (val_main_v48 (F := Ideal) X E EW W1 B1)) W2 := by
  funext i
  rw [val_main_v50_apply]
  unfold Cert.Spec.lin Cert.Spec.relu
  refine Finset.sum_congr rfl fun k _ => ?_
  have e1 : ∀ j : S100000x16.Idx, val_main_v49 (F := Ideal) X E EW W1 B1 j
      = max (val_main_v48 (F := Ideal) X E EW W1 B1 j) 0 := fun j => by
    rw [val_main_v49_apply, val_main_call1_v0_apply, val_main_call1_cst_apply]
    show max _ (Ideal.ofBits .f32 0x00000000#32) = _
    rw [Ideal.ofBits_zero_f32]
  rw [e1, lidx50, ridx50]
  rfl

end Cert.ReferenceIdeal.Products

end
-- ==== Proof.KernelValue.lean ====
/-
  The kernel program's two results as functions of its argument arrays.

  Down the fold of boundary contents, every buffer a later segment reads is followed from the launch memory: the edge
  lists, weights and norm through the three opening stretches; the first region's product; the first layer through the
  stretch after it; the second region's product of the floored layer; the logits through the next stretch; the last
  region's log-softmax. At each boundary the buffer holds the reference's own stage of the argument arrays, so at the end
  the first result is the row-wise log-softmax of the reference's logits and the second is the reference's first layer.
  A region leaves every buffer that is not one of its arrays, and each of its input arrays, as it found it.
-/
import proofs.«104175_j59768764891999_1_alg».proof.Proof.Gen.KernelIdeal.Frame
import proofs.«104175_j59768764891999_1_alg».proof.Proof.KernelStretch
import proofs.«104175_j59768764891999_1_alg».proof.Proof.Region0
import proofs.«104175_j59768764891999_1_alg».proof.Proof.Region1
import proofs.«104175_j59768764891999_1_alg».proof.Proof.Region2
import proofs.«104175_j59768764891999_1_alg».proof.Proof.RefProducts

set_option maxRecDepth 16384

noncomputable section

namespace Cert.KernelIdeal.Values

open Cert.KernelIdeal Cert.KernelIdeal.Gen Cert.KernelIdeal.Stretch Cert.ReferenceIdeal.ReadP
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The seven argument arrays as launched. -/
abbrev aX : (⟨S100000x512, .f32⟩ : BufTy).Contents (Elt Ideal) := m ((c : Thread nD τ).loc main_arg0)
abbrev aE : (⟨S2x3200000, .i32⟩ : BufTy).Contents (Elt Ideal) := m ((c : Thread nD τ).loc main_arg1)
abbrev aEW : (⟨S3200000, .f32⟩ : BufTy).Contents (Elt Ideal) := m ((c : Thread nD τ).loc main_arg2)
abbrev aW1 : (⟨S512x16, .f32⟩ : BufTy).Contents (Elt Ideal) := m ((c : Thread nD τ).loc main_arg3)
abbrev aB1 : (⟨S16, .f32⟩ : BufTy).Contents (Elt Ideal) := m ((c : Thread nD τ).loc main_arg4)
abbrev aW2 : (⟨S16x10, .f32⟩ : BufTy).Contents (Elt Ideal) := m ((c : Thread nD τ).loc main_arg5)
abbrev aB2 : (⟨S10, .f32⟩ : BufTy).Contents (Elt Ideal) := m ((c : Thread nD τ).loc main_arg6)

/-! ## After the first stretch -/

theorem w1_v3 : W1 (F := Ideal) m ρ c (Proc.devRef .tc main_v3) = val_main_v3 (F := Ideal) (aE m c) := s0_v3 (W0 (F := Ideal) m ρ c) _ rfl
theorem w1_v6 : W1 (F := Ideal) m ρ c (Proc.devRef .tc main_v6) = val_main_v6 (F := Ideal) (aE m c) := s0_v6 (W0 (F := Ideal) m ρ c) _ rfl
theorem w1_v8 : W1 (F := Ideal) m ρ c (Proc.devRef .tc main_v8) = val_main_v8 (F := Ideal) (aEW m c) := s0_v8 (W0 (F := Ideal) m ρ c) _ rfl
theorem w1_v13 : W1 (F := Ideal) m ρ c (Proc.devRef .tc main_v13) = val_main_v13 (F := Ideal) (aE m c) (aEW m c) := s0_v13 (W0 (F := Ideal) m ρ c) _ _ rfl rfl
theorem w1_v14 : W1 (F := Ideal) m ρ c (Proc.devRef .tc main_v14) = val_main_v14 (F := Ideal) (aE m c) (aEW m c) := s0_v14 (W0 (F := Ideal) m ρ c) _ _ rfl rfl
theorem w1_cst2 : W1 (F := Ideal) m ρ c (Proc.devRef .tc main_cst_2) = val_main_cst_2 (F := Ideal) := s0_cst2 (W0 (F := Ideal) m ρ c)
theorem w1_arg0 : W1 (F := Ideal) m ρ c (Proc.devRef .tc main_arg0) = aX m c := k0_arg0 (W0 (F := Ideal) m ρ c)
theorem w1_arg3 : W1 (F := Ideal) m ρ c (Proc.devRef .tc main_arg3) = aW1 m c := k0_arg3 (W0 (F := Ideal) m ρ c)
theorem w1_arg4 : W1 (F := Ideal) m ρ c (Proc.devRef .tc main_arg4) = aB1 m c := k0_arg4 (W0 (F := Ideal) m ρ c)
theorem w1_arg5 : W1 (F := Ideal) m ρ c (Proc.devRef .tc main_arg5) = aW2 m c := k0_arg5 (W0 (F := Ideal) m ρ c)
theorem w1_arg6 : W1 (F := Ideal) m ρ c (Proc.devRef .tc main_arg6) = aB2 m c := k0_arg6 (W0 (F := Ideal) m ρ c)

/-! ## After the second stretch -/

theorem w2_v15 : W2 (F := Ideal) m ρ c (Proc.devRef .tc main_v15) = val_main_v15 (F := Ideal) (aE m c) (aEW m c) :=
  s01_v15 (W1 (F := Ideal) m ρ c) _ _ (w1_v13 m ρ c) (w1_v14 m ρ c) (w1_cst2 m ρ c)
theorem w2_v3 : W2 (F := Ideal) m ρ c (Proc.devRef .tc main_v3) = val_main_v3 (F := Ideal) (aE m c) := (k01_v3 (W1 (F := Ideal) m ρ c)).trans (w1_v3 m ρ c)
theorem w2_v6 : W2 (F := Ideal) m ρ c (Proc.devRef .tc main_v6) = val_main_v6 (F := Ideal) (aE m c) := (k01_v6 (W1 (F := Ideal) m ρ c)).trans (w1_v6 m ρ c)
theorem w2_v8 : W2 (F := Ideal) m ρ c (Proc.devRef .tc main_v8) = val_main_v8 (F := Ideal) (aEW m c) := (k01_v8 (W1 (F := Ideal) m ρ c)).trans (w1_v8 m ρ c)
theorem w2_arg0 : W2 (F := Ideal) m ρ c (Proc.devRef .tc main_arg0) = aX m c := (k01_arg0 (W1 (F := Ideal) m ρ c)).trans (w1_arg0 m ρ c)
theorem w2_arg3 : W2 (F := Ideal) m ρ c (Proc.devRef .tc main_arg3) = aW1 m c := (k01_arg3 (W1 (F := Ideal) m ρ c)).trans (w1_arg3 m ρ c)
theorem w2_arg4 : W2 (F := Ideal) m ρ c (Proc.devRef .tc main_arg4) = aB1 m c := (k01_arg4 (W1 (F := Ideal) m ρ c)).trans (w1_arg4 m ρ c)
theorem w2_arg5 : W2 (F := Ideal) m ρ c (Proc.devRef .tc main_arg5) = aW2 m c := (k01_arg5 (W1 (F := Ideal) m ρ c)).trans (w1_arg5 m ρ c)
theorem w2_arg6 : W2 (F := Ideal) m ρ c (Proc.devRef .tc main_arg6) = aB2 m c := (k01_arg6 (W1 (F := Ideal) m ρ c)).trans (w1_arg6 m ρ c)

/-! ## After the third stretch: the first region's entry -/

theorem w3_v31 : W3 (F := Ideal) m ρ c (Proc.devRef .tc main_v31) = val_main_v31 (F := Ideal) (aE m c) (aEW m c) :=
  s02_v31 (W2 (F := Ideal) m ρ c) _ _ (w2_v3 m ρ c) (w2_v6 m ρ c) (w2_v8 m ρ c) (w2_v15 m ρ c)
theorem w3_v3 : W3 (F := Ideal) m ρ c (Proc.devRef .tc main_v3) = val_main_v3 (F := Ideal) (aE m c) := (k02_v3 (W2 (F := Ideal) m ρ c)).trans (w2_v3 m ρ c)
theorem w3_v6 : W3 (F := Ideal) m ρ c (Proc.devRef .tc main_v6) = val_main_v6 (F := Ideal) (aE m c) := (k02_v6 (W2 (F := Ideal) m ρ c)).trans (w2_v6 m ρ c)
theorem w3_arg0 : W3 (F := Ideal) m ρ c (Proc.devRef .tc main_arg0) = aX m c := (k02_arg0 (W2 (F := Ideal) m ρ c)).trans (w2_arg0 m ρ c)
theorem w3_arg3 : W3 (F := Ideal) m ρ c (Proc.devRef .tc main_arg3) = aW1 m c := (k02_arg3 (W2 (F := Ideal) m ρ c)).trans (w2_arg3 m ρ c)
theorem w3_arg4 : W3 (F := Ideal) m ρ c (Proc.devRef .tc main_arg4) = aB1 m c := (k02_arg4 (W2 (F := Ideal) m ρ c)).trans (w2_arg4 m ρ c)
theorem w3_arg5 : W3 (F := Ideal) m ρ c (Proc.devRef .tc main_arg5) = aW2 m c := (k02_arg5 (W2 (F := Ideal) m ρ c)).trans (w2_arg5 m ρ c)
theorem w3_arg6 : W3 (F := Ideal) m ρ c (Proc.devRef .tc main_arg6) = aB2 m c := (k02_arg6 (W2 (F := Ideal) m ρ c)).trans (w2_arg6 m ρ c)

/-! ## After the first region -/

/-- The first region leaves the reference's first product. -/
theorem w4_v32 : W4 (F := Ideal) m ρ c (Proc.devRef .tc main_v32) = val_main_v32 (F := Ideal) (aX m c) (aW1 m c) := by
  refine (W4_arr m ρ c 2).trans ?_
  rw [Cert.KernelIdeal.Region0.final (V3 (F := Ideal) m ρ) c]
  show Cert.Spec.lin (M := 100000) (K := 512) (N := 16) (W3 (F := Ideal) m ρ c (Proc.devRef .tc main_arg0)) (W3 (F := Ideal) m ρ c (Proc.devRef .tc main_arg3)) = _
  rw [w3_arg0, w3_arg3, Cert.ReferenceIdeal.Products.v32_eq]
theorem w4_v31 : W4 (F := Ideal) m ρ c (Proc.devRef .tc main_v31) = val_main_v31 (F := Ideal) (aE m c) (aEW m c) := (W4_of_ne m ρ c main_v31 (by decide)).trans (w3_v31 m ρ c)
theorem w4_v3 : W4 (F := Ideal) m ρ c (Proc.devRef .tc main_v3) = val_main_v3 (F := Ideal) (aE m c) := (W4_of_ne m ρ c main_v3 (by decide)).trans (w3_v3 m ρ c)
theorem w4_v6 : W4 (F := Ideal) m ρ c (Proc.devRef .tc main_v6) = val_main_v6 (F := Ideal) (aE m c) := (W4_of_ne m ρ c main_v6 (by decide)).trans (w3_v6 m ρ c)
theorem w4_arg4 : W4 (F := Ideal) m ρ c (Proc.devRef .tc main_arg4) = aB1 m c := (W4_of_ne m ρ c main_arg4 (by decide)).trans (w3_arg4 m ρ c)
theorem w4_arg5 : W4 (F := Ideal) m ρ c (Proc.devRef .tc main_arg5) = aW2 m c := (W4_of_ne m ρ c main_arg5 (by decide)).trans (w3_arg5 m ρ c)
theorem w4_arg6 : W4 (F := Ideal) m ρ c (Proc.devRef .tc main_arg6) = aB2 m c := (W4_of_ne m ρ c main_arg6 (by decide)).trans (w3_arg6 m ρ c)

/-! ## After the fourth stretch: the second region's entry -/

/-- The first layer. -/
theorem w5_v48 : W5 (F := Ideal) m ρ c (Proc.devRef .tc main_v48) = val_main_v48 (F := Ideal) (aX m c) (aE m c) (aEW m c) (aW1 m c) (aB1 m c) :=
  s1_v48 (W4 (F := Ideal) m ρ c) _ _ _ _ _ (w4_v32 m ρ c) (w4_v31 m ρ c) (w4_v3 m ρ c) (w4_v6 m ρ c) (w4_arg4 m ρ c)
theorem w5_v31 : W5 (F := Ideal) m ρ c (Proc.devRef .tc main_v31) = val_main_v31 (F := Ideal) (aE m c) (aEW m c) := (k1_v31 (W4 (F := Ideal) m ρ c)).trans (w4_v31 m ρ c)
theorem w5_v3 : W5 (F := Ideal) m ρ c (Proc.devRef .tc main_v3) = val_main_v3 (F := Ideal) (aE m c) := (k1_v3 (W4 (F := Ideal) m ρ c)).trans (w4_v3 m ρ c)
theorem w5_v6 : W5 (F := Ideal) m ρ c (Proc.devRef .tc main_v6) = val_main_v6 (F := Ideal) (aE m c) := (k1_v6 (W4 (F := Ideal) m ρ c)).trans (w4_v6 m ρ c)
theorem w5_arg5 : W5 (F := Ideal) m ρ c (Proc.devRef .tc main_arg5) = aW2 m c := (k1_arg5 (W4 (F := Ideal) m ρ c)).trans (w4_arg5 m ρ c)
theorem w5_arg6 : W5 (F := Ideal) m ρ c (Proc.devRef .tc main_arg6) = aB2 m c := (k1_arg6 (W4 (F := Ideal) m ρ c)).trans (w4_arg6 m ρ c)

/-! ## After the second region -/

/-- The second region leaves the reference's second product. -/
theorem w6_v49 : W6 (F := Ideal) m ρ c (Proc.devRef .tc main_v49) = val_main_v50 (F := Ideal) (aX m c) (aE m c) (aEW m c) (aW1 m c) (aB1 m c) (aW2 m c) := by
  refine (W6_arr m ρ c 2).trans ?_
  rw [Cert.KernelIdeal.Region1.final (V5 (F := Ideal) m ρ) c]
  show Cert.Spec.lin (M := 100000) (K := 16) (N := 10) (Cert.Spec.relu (S := S100000x16) (W5 (F := Ideal) m ρ c (Proc.devRef .tc main_v48))) (W5 (F := Ideal) m ρ c (Proc.devRef .tc main_arg5)) = _
  rw [w5_v48, w5_arg5, Cert.ReferenceIdeal.Products.v50_eq]
/-- The first layer is the second region's input array: the region leaves it as it found it. -/
theorem w6_v48 : W6 (F := Ideal) m ρ c (Proc.devRef .tc main_v48) = val_main_v48 (F := Ideal) (aX m c) (aE m c) (aEW m c) (aW1 m c) (aB1 m c) :=
  ((W6_arr m ρ c 0).trans (((dat1 (V5 (F := Ideal) m ρ) c).arrAt_in 0 rfl _).trans (A_eq1 (V5 (F := Ideal) m ρ) c 0))).trans (w5_v48 m ρ c)
theorem w6_v31 : W6 (F := Ideal) m ρ c (Proc.devRef .tc main_v31) = val_main_v31 (F := Ideal) (aE m c) (aEW m c) := (W6_of_ne m ρ c main_v31 (by decide)).trans (w5_v31 m ρ c)
theorem w6_v3 : W6 (F := Ideal) m ρ c (Proc.devRef .tc main_v3) = val_main_v3 (F := Ideal) (aE m c) := (W6_of_ne m ρ c main_v3 (by decide)).trans (w5_v3 m ρ c)
theorem w6_v6 : W6 (F := Ideal) m ρ c (Proc.devRef .tc main_v6) = val_main_v6 (F := Ideal) (aE m c) := (W6_of_ne m ρ c main_v6 (by decide)).trans (w5_v6 m ρ c)
theorem w6_arg6 : W6 (F := Ideal) m ρ c (Proc.devRef .tc main_arg6) = aB2 m c := (W6_of_ne m ρ c main_arg6 (by decide)).trans (w5_arg6 m ρ c)

/-! ## After the fifth stretch: the third region's entry -/

/-- The logits. -/
theorem w7_v65 : W7 (F := Ideal) m ρ c (Proc.devRef .tc main_v65) = val_main_v66 (F := Ideal) (aX m c) (aE m c) (aEW m c) (aW1 m c) (aB1 m c) (aW2 m c) (aB2 m c) :=
  s2_v65 (W6 (F := Ideal) m ρ c) _ _ _ _ _ _ _ (w6_v49 m ρ c) (w6_v31 m ρ c) (w6_v3 m ρ c) (w6_v6 m ρ c) (w6_arg6 m ρ c)
theorem w7_v48 : W7 (F := Ideal) m ρ c (Proc.devRef .tc main_v48) = val_main_v48 (F := Ideal) (aX m c) (aE m c) (aEW m c) (aW1 m c) (aB1 m c) := (k2_v48 (W6 (F := Ideal) m ρ c)).trans (w6_v48 m ρ c)

/-! ## After the third region: the two results -/

/-- The first result: the row-wise log-softmax of the reference's logits. -/
theorem w8_v66 : W8 (F := Ideal) m ρ c (Proc.devRef .tc main_v66)
    = Cert.Spec.lsm (M := 100000) (N := 10) (val_main_v66 (F := Ideal) (aX m c) (aE m c) (aEW m c) (aW1 m c) (aB1 m c) (aW2 m c) (aB2 m c)) := by
  refine (W8_arr m ρ c 1).trans ?_
  rw [Cert.KernelIdeal.Region2.final (V7 (F := Ideal) m ρ) c]
  show Cert.Spec.lsm (M := 100000) (N := 10) (W7 (F := Ideal) m ρ c (Proc.devRef .tc main_v65)) = _
  rw [w7_v65]
/-- The second result: the reference's first layer. -/
theorem w8_v48 : W8 (F := Ideal) m ρ c (Proc.devRef .tc main_v48) = val_main_v48 (F := Ideal) (aX m c) (aE m c) (aEW m c) (aW1 m c) (aB1 m c) :=
  (W8_of_ne m ρ c main_v48 (by decide)).trans (w7_v48 m ρ c)

end Cert.KernelIdeal.Values

end
-- ==== Proof.RefLists.lean ====
/-
  The reference's hundred host operations cut into six stretches.

  The cuts fall where the intermediate values have names worth keeping: after the edge lists, weights and degree test;
  after the guarded inverse root; after the edge norm; after the first layer; after the logits. The six lists in order are
  the program's list of operations, and running two lists one after the other is running their concatenation.
-/
import proofs.«104175_j59768764891999_1_alg».proof.Proof.RefOps
import Idealize.ShloMosaic.Lib.StableHlo.Run

set_option maxRecDepth 16384

noncomputable section

namespace Cert.ReferenceIdeal.Stretch

open Cert.ReferenceIdeal Cert.ReferenceIdeal.Gen Cert.ReferenceIdeal.ValueP
open Idealize.ShloMosaic Idealize.ShloMosaic.TcCoe Idealize.SL.Sem Idealize.ShloMosaic.StableHlo

section Lists
variable {F : FTy → Type} [FloatOps F]

/-- Operations 1–19: the edge lists with self-loops, the weights with ones, the degree, its sign test and inverse root. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 20–22: the guarded inverse root. -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23–42: the edge norm. -/
abbrev opsC : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- Operations 43–62: the first product, the first layer's aggregation and bias. -/
abbrev opsD : List (HloOp τ sig (Elt F)) :=
  [ binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)) ]

/-- Operations 63–85: the maximum with zero, the second product, the second layer's aggregation and bias. -/
abbrev opsE : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    unary main_v31 main_v51 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v3 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v3 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v3 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v50 main_v57 main_v58 ((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)),
    unary main_v51 main_v59 (broadcastInDim S3300000x10 ![0, 1] bcast_S3300000x1_S3300000x10_0_1 : (⟨S3300000x1, .f32⟩ : BufTy).Contents (Elt F) → (⟨S3300000x10, .f32⟩ : BufTy).Contents (Elt F)),
    binary main_v59 main_v58 main_v60 (mulf : (⟨S3300000x10, .f32⟩ : BufTy).Contents (Elt F) → (⟨S3300000x10, .f32⟩ : BufTy).Contents (Elt F) → (⟨S3300000x10, .f32⟩ : BufTy).Contents (Elt F)),
    nullary main_cst_11 (constant S_ .f32 0x00000000#32),
    unary main_cst_11 main_v61 (broadcastInDim S100000x10 ![] bcast_S_S100000x10 : (⟨S_, .f32⟩ : BufTy).Contents (Elt F) → (⟨S100000x10, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)),
    unary main_arg6 main_v64 (broadcastInDim S1x10 ![1] bcast_S10_S1x10_1 : (⟨S10, .f32⟩ : BufTy).Contents (Elt F) → (⟨S1x10, .f32⟩ : BufTy).Contents (Elt F)),
    unary main_v64 main_v65 (broadcastInDim S100000x10 ![0, 1] bcast_S1x10_S100000x10_0_1 : (⟨S1x10, .f32⟩ : BufTy).Contents (Elt F) → (⟨S100000x10, .f32⟩ : BufTy).Contents (Elt F)),
    binary main_v63 main_v65 main_v66 (addf : (⟨S100000x10, .f32⟩ : BufTy).Contents (Elt F) → (⟨S100000x10, .f32⟩ : BufTy).Contents (Elt F) → (⟨S100000x10, .f32⟩ : BufTy).Contents (Elt F)) ]

/-- Operations 86–100: the log-softmax. -/
abbrev opsF : List (HloOp τ sig (Elt F)) :=
  [ TRef.nullary (TRef.of (T := ⟨S_, .f32⟩) main_call2_cst) (constant S_ .f32 0xFF800000#32),
    TRef.binary (TRef.of (T := ⟨S100000x10, .f32⟩) main_v66) (TRef.of (T := ⟨S_, .f32⟩) main_call2_cst) (TRef.of (T := ⟨S100000, .f32⟩) main_call2_v0) (fun x v => Host.reduce FloatOps.maximumf x v reducesTo_S100000x10_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x10, .f32⟩) main_call2_v4) (broadcastInDim S100000x10 ![0, 1] bcast_S100000x1_S100000x10_0_1),
    TRef.binary (TRef.of (T := ⟨S100000x10, .f32⟩) main_v66) (TRef.of (T := ⟨S100000x10, .f32⟩) main_call2_v4) (TRef.of (T := ⟨S100000x10, .f32⟩) main_call2_v5) subf,
    TRef.unary (TRef.of (T := ⟨S100000x10, .f32⟩) main_call2_v5) (TRef.of (T := ⟨S100000x10, .f32⟩) main_call2_v6) Host.exp,
    TRef.nullary (TRef.of (T := ⟨S_, .f32⟩) main_call2_cst_1) (constant S_ .f32 0x00000000#32),
    TRef.binary (TRef.of (T := ⟨S100000x10, .f32⟩) main_call2_v6) (TRef.of (T := ⟨S_, .f32⟩) main_call2_cst_1) (TRef.of (T := ⟨S100000, .f32⟩) main_call2_v7) (fun x v => Host.reduceAdd x v reducesTo_S100000x10_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x10, .f32⟩) main_call2_v10) (broadcastInDim S100000x10 ![0, 1] bcast_S100000x1_S100000x10_0_1),
    TRef.binary (TRef.of (T := ⟨S100000x10, .f32⟩) main_call2_v5) (TRef.of (T := ⟨S100000x10, .f32⟩) main_call2_v10) (TRef.of (T := ⟨S100000x10, .f32⟩) main_v67) subf ]

/-- The six stretches in order are the program's operations. -/
theorem ops_split : (ops (F := F)) = opsA ++ (opsB ++ (opsC ++ (opsD ++ (opsE ++ opsF)))) := rfl

end Lists

/-- Running two stretches one after the other is running their concatenation. -/
theorem after_append {Val : EltTy → Type} (a b : List (HloOp τ sig Val)) (V : Valuation τ sig Val) :
    after (a ++ b) V = after b (after a V) := by
  induction a generalizing V with
  | nil => rfl
  | cons op a ih => exact ih _

/-- A typed reference transports a value to its buffer's own type and back unchanged. -/
theorem ofBuf_toBuf {T : BufTy} {Val : EltTy → Type} (x : TRef sig T) (v : T.Contents Val) : x.ofBuf (x.toBuf v) = v := by
  obtain ⟨r, h, _, _⟩ := x
  subst h
  rfl

end Cert.ReferenceIdeal.Stretch

end
-- ==== Proof.RefStretchA.lean ====
/-
  The reference's host operations, one stretch read against its own stages: operations 1–19, the edge lists with self-loops, the weights with ones, the degree, its sign test and inverse root.

  The stretch is read from an arbitrary valuation of the buffers: when the buffers it reads hold the stages of the
  argument arrays, the buffer it is read at holds its stage; a buffer the stretch does not write keeps its contents.
  Where an operation names its buffers through typed references, the transport between a literal buffer's own type and
  the operation's is the identity.
-/
import proofs.«104175_j59768764891999_1_alg».proof.Proof.RefLists
import proofs.«104175_j59768764891999_1_alg».proof.Proof.RefRead
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (Wv : Valuation τ sig (Elt Ideal))
variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

/-- The source list with the self-loops appended. -/
theorem a_v3 (h1 : Wv (Proc.devRef .tc main_arg1) = E) :
    after (opsA (F := Ideal)) Wv (Proc.devRef .tc main_v3) = val_main_v3 (F := Ideal) E := by
  after_results
  rw [h1]
  rfl
/-- The target list with the self-loops appended. -/
theorem a_v6 (h1 : Wv (Proc.devRef .tc main_arg1) = E) :
    after (opsA (F := Ideal)) Wv (Proc.devRef .tc main_v6) = val_main_v6 (F := Ideal) E := by
  after_results
  rw [h1]
  rfl
/-- The edge weights with a one per self-loop appended. -/
theorem a_v8 (h2 : Wv (Proc.devRef .tc main_arg2) = EW) :
    after (opsA (F := Ideal)) Wv (Proc.devRef .tc main_v8) = val_main_v8 (F := Ideal) EW := by
  after_results
  rw [h2]
  rfl
/-- Where the degree is positive. -/
theorem a_v13 (h1 : Wv (Proc.devRef .tc main_arg1) = E) (h2 : Wv (Proc.devRef .tc main_arg2) = EW) :
    after (opsA (F := Ideal)) Wv (Proc.devRef .tc main_v13) = val_main_v13 (F := Ideal) E EW := by
  after_results
  rw [h1, h2]
  rfl
/-- The inverse square root of the degree. -/
theorem a_v14 (h1 : Wv (Proc.devRef .tc main_arg1) = E) (h2 : Wv (Proc.devRef .tc main_arg2) = EW) :
    after (opsA (F := Ideal)) Wv (Proc.devRef .tc main_v14) = val_main_v14 (F := Ideal) E EW := by
  after_results
  rw [h1, h2]
  rfl
/-- The zero that replaces it where the degree is not positive. -/
theorem a_cst2  :
    after (opsA (F := Ideal)) Wv (Proc.devRef .tc main_cst_2) = val_main_cst_2 (F := Ideal) := by
  after_results
  rfl
theorem ka_arg0 : after (opsA (F := Ideal)) Wv (Proc.devRef .tc main_arg0) = Wv (Proc.devRef .tc main_arg0) := by
  after_results_simp
theorem ka_arg3 : after (opsA (F := Ideal)) Wv (Proc.devRef .tc main_arg3) = Wv (Proc.devRef .tc main_arg3) := by
  after_results_simp
theorem ka_arg4 : after (opsA (F := Ideal)) Wv (Proc.devRef .tc main_arg4) = Wv (Proc.devRef .tc main_arg4) := by
  after_results_simp
theorem ka_arg5 : after (opsA (F := Ideal)) Wv (Proc.devRef .tc main_arg5) = Wv (Proc.devRef .tc main_arg5) := by
  after_results_simp
theorem ka_arg6 : after (opsA (F := Ideal)) Wv (Proc.devRef .tc main_arg6) = Wv (Proc.devRef .tc main_arg6) := by
  after_results_simp

end Cert.ReferenceIdeal.Stretch

end
-- ==== Proof.RefStretchBC.lean ====
/-
  The reference's host operations, one stretch read against its own stages: operations 20–42, the guarded inverse root of the degree and the edge norm.

  The stretch is read from an arbitrary valuation of the buffers: when the buffers it reads hold the stages of the
  argument arrays, the buffer it is read at holds its stage; a buffer the stretch does not write keeps its contents.
  Where an operation names its buffers through typed references, the transport between a literal buffer's own type and
  the operation's is the identity.
-/
import proofs.«104175_j59768764891999_1_alg».proof.Proof.RefLists
import proofs.«104175_j59768764891999_1_alg».proof.Proof.RefRead
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (Wv : Valuation τ sig (Elt Ideal))
variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

theorem of_v13 (v : (⟨S100000, .i1⟩ : BufTy).Contents (Elt Ideal)) :
    (TRef.of (sig := sig) (T := ⟨S100000, .i1⟩) main_v13).ofBuf (Val := Elt Ideal) v = v := rfl
theorem of_v14 (v : (⟨S100000, .f32⟩ : BufTy).Contents (Elt Ideal)) :
    (TRef.of (sig := sig) (T := ⟨S100000, .f32⟩) main_v14).ofBuf (Val := Elt Ideal) v = v := rfl
theorem of_cst2 (v : (⟨S_, .f32⟩ : BufTy).Contents (Elt Ideal)) :
    (TRef.of (sig := sig) (T := ⟨S_, .f32⟩) main_cst_2).ofBuf (Val := Elt Ideal) v = v := rfl
theorem to_v15 (v : (⟨S100000, .f32⟩ : BufTy).Contents (Elt Ideal)) :
    (TRef.of (sig := sig) (T := ⟨S100000, .f32⟩) main_v15).toBuf (Val := Elt Ideal) v = v := rfl

/-- The guarded inverse root of the degree. -/
theorem b_v15 (h13 : Wv (Proc.devRef .tc main_v13) = val_main_v13 (F := Ideal) E EW) (h14 : Wv (Proc.devRef .tc main_v14) = val_main_v14 (F := Ideal) E EW) (hc : Wv (Proc.devRef .tc main_cst_2) = val_main_cst_2 (F := Ideal)) :
    after (opsB (F := Ideal)) Wv (Proc.devRef .tc main_v15) = val_main_v15 (F := Ideal) E EW := by
  after_results_simp
  rw [h13, h14, hc]
  rw [ofBuf_toBuf, ofBuf_toBuf, of_v13, of_v14, of_cst2, to_v15]
  rfl
theorem kb_v3 : after (opsB (F := Ideal)) Wv (Proc.devRef .tc main_v3) = Wv (Proc.devRef .tc main_v3) := by
  after_results_simp
theorem kb_v6 : after (opsB (F := Ideal)) Wv (Proc.devRef .tc main_v6) = Wv (Proc.devRef .tc main_v6) := by
  after_results_simp
theorem kb_v8 : after (opsB (F := Ideal)) Wv (Proc.devRef .tc main_v8) = Wv (Proc.devRef .tc main_v8) := by
  after_results_simp
theorem kb_arg0 : after (opsB (F := Ideal)) Wv (Proc.devRef .tc main_arg0) = Wv (Proc.devRef .tc main_arg0) := by
  after_results_simp
theorem kb_arg3 : after (opsB (F := Ideal)) Wv (Proc.devRef .tc main_arg3) = Wv (Proc.devRef .tc main_arg3) := by
  after_results_simp
theorem kb_arg4 : after (opsB (F := Ideal)) Wv (Proc.devRef .tc main_arg4) = Wv (Proc.devRef .tc main_arg4) := by
  after_results_simp
theorem kb_arg5 : after (opsB (F := Ideal)) Wv (Proc.devRef .tc main_arg5) = Wv (Proc.devRef .tc main_arg5) := by
  after_results_simp
theorem kb_arg6 : after (opsB (F := Ideal)) Wv (Proc.devRef .tc main_arg6) = Wv (Proc.devRef .tc main_arg6) := by
  after_results_simp

/-- The edge norm. -/
theorem c_v31 (h3 : Wv (Proc.devRef .tc main_v3) = val_main_v3 (F := Ideal) E) (h6 : Wv (Proc.devRef .tc main_v6) = val_main_v6 (F := Ideal) E) (h8 : Wv (Proc.devRef .tc main_v8) = val_main_v8 (F := Ideal) EW) (h15 : Wv (Proc.devRef .tc main_v15) = val_main_v15 (F := Ideal) E EW) :
    after (opsC (F := Ideal)) Wv (Proc.devRef .tc main_v31) = val_main_v31 (F := Ideal) E EW := by
  after_results_simp
  rw [h3, h6, h8, h15]
  rfl
theorem kc_v3 : after (opsC (F := Ideal)) Wv (Proc.devRef .tc main_v3) = Wv (Proc.devRef .tc main_v3) := by
  after_results_simp
theorem kc_v6 : after (opsC (F := Ideal)) Wv (Proc.devRef .tc main_v6) = Wv (Proc.devRef .tc main_v6) := by
  after_results_simp
theorem kc_arg0 : after (opsC (F := Ideal)) Wv (Proc.devRef .tc main_arg0) = Wv (Proc.devRef .tc main_arg0) := by
  after_results_simp
theorem kc_arg3 : after (opsC (F := Ideal)) Wv (Proc.devRef .tc main_arg3) = Wv (Proc.devRef .tc main_arg3) := by
  after_results_simp
theorem kc_arg4 : after (opsC (F := Ideal)) Wv (Proc.devRef .tc main_arg4) = Wv (Proc.devRef .tc main_arg4) := by
  after_results_simp
theorem kc_arg5 : after (opsC (F := Ideal)) Wv (Proc.devRef .tc main_arg5) = Wv (Proc.devRef .tc main_arg5) := by
  after_results_simp
theorem kc_arg6 : after (opsC (F := Ideal)) Wv (Proc.devRef .tc main_arg6) = Wv (Proc.devRef .tc main_arg6) := by
  after_results_simp

end Cert.ReferenceIdeal.Stretch

end
-- ==== Proof.RefStretchD.lean ====
/-
  The reference's host operations, one stretch read against its own stages: operations 43–62, the first product and the first layer's aggregation and bias.

  The stretch is read from an arbitrary valuation of the buffers: when the buffers it reads hold the stages of the
  argument arrays, the buffer it is read at holds its stage; a buffer the stretch does not write keeps its contents.
  Where an operation names its buffers through typed references, the transport between a literal buffer's own type and
  the operation's is the identity.
-/
import proofs.«104175_j59768764891999_1_alg».proof.Proof.RefLists
import proofs.«104175_j59768764891999_1_alg».proof.Proof.RefRead
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (Wv : Valuation τ sig (Elt Ideal))
variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

/-- The first layer. -/
theorem d_v48 (h0 : Wv (Proc.devRef .tc main_arg0) = X) (h3' : Wv (Proc.devRef .tc main_arg3) = W1) (h31 : Wv (Proc.devRef .tc main_v31) = val_main_v31 (F := Ideal) E EW) (h3 : Wv (Proc.devRef .tc main_v3) = val_main_v3 (F := Ideal) E) (h6 : Wv (Proc.devRef .tc main_v6) = val_main_v6 (F := Ideal) E) (h4 : Wv (Proc.devRef .tc main_arg4) = B1) :
    after (opsD (F := Ideal)) Wv (Proc.devRef .tc main_v48) = val_main_v48 (F := Ideal) X E EW W1 B1 := by
  after_results_simp
  rw [h0, h3', h31, h3, h6, h4]
  rfl
theorem kd_v31 : after (opsD (F := Ideal)) Wv (Proc.devRef .tc main_v31) = Wv (Proc.devRef .tc main_v31) := by
  after_results_simp
theorem kd_v3 : after (opsD (F := Ideal)) Wv (Proc.devRef .tc main_v3) = Wv (Proc.devRef .tc main_v3) := by
  after_results_simp
theorem kd_v6 : after (opsD (F := Ideal)) Wv (Proc.devRef .tc main_v6) = Wv (Proc.devRef .tc main_v6) := by
  after_results_simp
theorem kd_arg5 : after (opsD (F := Ideal)) Wv (Proc.devRef .tc main_arg5) = Wv (Proc.devRef .tc main_arg5) := by
  after_results_simp
theorem kd_arg6 : after (opsD (F := Ideal)) Wv (Proc.devRef .tc main_arg6) = Wv (Proc.devRef .tc main_arg6) := by
  after_results_simp

end Cert.ReferenceIdeal.Stretch

end
-- ==== Proof.RefStretchE.lean ====
/-
  The reference's host operations, one stretch read against its own stages: operations 63–85, the maximum with zero, the second product, the second layer's aggregation and bias.

  The stretch is read from an arbitrary valuation of the buffers: when the buffers it reads hold the stages of the
  argument arrays, the buffer it is read at holds its stage; a buffer the stretch does not write keeps its contents.
  Where an operation names its buffers through typed references, the transport between a literal buffer's own type and
  the operation's is the identity.
-/
import proofs.«104175_j59768764891999_1_alg».proof.Proof.RefLists
import proofs.«104175_j59768764891999_1_alg».proof.Proof.RefRead
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (Wv : Valuation τ sig (Elt Ideal))
variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

theorem of_v48 (v : (⟨S100000x16, .f32⟩ : BufTy).Contents (Elt Ideal)) :
    (TRef.of (sig := sig) (T := ⟨S100000x16, .f32⟩) main_v48).ofBuf (Val := Elt Ideal) v = v := rfl
theorem to_v49 (v : (⟨S100000x16, .f32⟩ : BufTy).Contents (Elt Ideal)) :
    (TRef.of (sig := sig) (T := ⟨S100000x16, .f32⟩) main_v49).toBuf (Val := Elt Ideal) v = v := rfl

/-- The logits. -/
theorem e_v66 (h48 : Wv (Proc.devRef .tc main_v48) = val_main_v48 (F := Ideal) X E EW W1 B1) (h5 : Wv (Proc.devRef .tc main_arg5) = W2) (h31 : Wv (Proc.devRef .tc main_v31) = val_main_v31 (F := Ideal) E EW) (h3 : Wv (Proc.devRef .tc main_v3) = val_main_v3 (F := Ideal) E) (h6 : Wv (Proc.devRef .tc main_v6) = val_main_v6 (F := Ideal) E) (h6' : Wv (Proc.devRef .tc main_arg6) = B2) :
    after (opsE (F := Ideal)) Wv (Proc.devRef .tc main_v66) = val_main_v66 (F := Ideal) X E EW W1 B1 W2 B2 := by
  after_results_simp
  rw [h48, h5, h31, h3, h6, h6']
  simp only [ofBuf_toBuf, of_v48, to_v49]
  rfl
theorem ke_v48 : after (opsE (F := Ideal)) Wv (Proc.devRef .tc main_v48) = Wv (Proc.devRef .tc main_v48) := by
  after_results_simp

end Cert.ReferenceIdeal.Stretch

end
-- ==== Proof.RefStretchF.lean ====
/-
  The reference's host operations, one stretch read against its own stages: operations 86–100, the log-softmax.

  The stretch is read from an arbitrary valuation of the buffers: when the buffers it reads hold the stages of the
  argument arrays, the buffer it is read at holds its stage; a buffer the stretch does not write keeps its contents.
  Where an operation names its buffers through typed references, the transport between a literal buffer's own type and
  the operation's is the identity.
-/
import proofs.«104175_j59768764891999_1_alg».proof.Proof.RefLists
import proofs.«104175_j59768764891999_1_alg».proof.Proof.RefRead
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (Wv : Valuation τ sig (Elt Ideal))
variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

theorem of_v66 (v : (⟨S100000x10, .f32⟩ : BufTy).Contents (Elt Ideal)) :
    (TRef.of (sig := sig) (T := ⟨S100000x10, .f32⟩) main_v66).ofBuf (Val := Elt Ideal) v = v := rfl
theorem to_v67 (v : (⟨S100000x10, .f32⟩ : BufTy).Contents (Elt Ideal)) :
    (TRef.of (sig := sig) (T := ⟨S100000x10, .f32⟩) main_v67).toBuf (Val := Elt Ideal) v = v := rfl

/-- The log-softmax of the logits. -/
theorem f_v67 (h66 : Wv (Proc.devRef .tc main_v66) = val_main_v66 (F := Ideal) X E EW W1 B1 W2 B2) :
    after (opsF (F := Ideal)) Wv (Proc.devRef .tc main_v67) = val_main_v67 (F := Ideal) X E EW W1 B1 W2 B2 := by
  after_results_simp
  rw [h66]
  simp only [ofBuf_toBuf, of_v66, to_v67]
  rfl
theorem kf_v48 : after (opsF (F := Ideal)) Wv (Proc.devRef .tc main_v48) = Wv (Proc.devRef .tc main_v48) := by
  after_results_simp

end Cert.ReferenceIdeal.Stretch

end
-- ==== Proof.RefValue.lean ====
/-
  The reference's two results as stages of its launch arrays.

  The six stretches are composed from the launch memory: each buffer a later stretch reads is followed through the
  stretches that do not write it, and each stretch's result is its stage of the argument arrays because the buffers it
  reads hold theirs. At the end the first result is the last stage, the log-softmax of the logits, and the second the
  first layer's stage.
-/
import proofs.«104175_j59768764891999_1_alg».proof.Proof.RefLists
import proofs.«104175_j59768764891999_1_alg».proof.Proof.RefRead
import proofs.«104175_j59768764891999_1_alg».proof.Proof.RefStretchA
import proofs.«104175_j59768764891999_1_alg».proof.Proof.RefStretchBC
import proofs.«104175_j59768764891999_1_alg».proof.Proof.RefStretchD
import proofs.«104175_j59768764891999_1_alg».proof.Proof.RefStretchE
import proofs.«104175_j59768764891999_1_alg».proof.Proof.RefStretchF
import Idealize.ShloMosaic.Lib.StableHlo.Run

set_option maxRecDepth 16384

noncomputable section

namespace Cert.ReferenceIdeal.Stretch

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (m : (ℓ : Loc nD τ sig) → Buf (Elt Ideal) ℓ) (c : Dev nD)

/-- The buffer contents after each of the first five stretches. -/
abbrev LA : Valuation τ sig (Elt Ideal) := after (opsA (F := Ideal)) (launchContents m c)
abbrev LB : Valuation τ sig (Elt Ideal) := after (opsB (F := Ideal)) (LA m c)
abbrev LC : Valuation τ sig (Elt Ideal) := after (opsC (F := Ideal)) (LB m c)
abbrev LD : Valuation τ sig (Elt Ideal) := after (opsD (F := Ideal)) (LC m c)
abbrev LE : Valuation τ sig (Elt Ideal) := after (opsE (F := Ideal)) (LD m c)

/-! ## After operations 1–19 -/

theorem la_v3 : LA m c (Proc.devRef .tc main_v3) = val_main_v3 (F := Ideal) (m ((c.tc : Thread nD τ).loc main_arg1)) := a_v3 (launchContents m c) _ rfl
theorem la_v6 : LA m c (Proc.devRef .tc main_v6) = val_main_v6 (F := Ideal) (m ((c.tc : Thread nD τ).loc main_arg1)) := a_v6 (launchContents m c) _ rfl
theorem la_v8 : LA m c (Proc.devRef .tc main_v8) = val_main_v8 (F := Ideal) (m ((c.tc : Thread nD τ).loc main_arg2)) := a_v8 (launchContents m c) _ rfl
theorem la_v13 : LA m c (Proc.devRef .tc main_v13) = val_main_v13 (F := Ideal) (m ((c.tc : Thread nD τ).loc main_arg1)) (m ((c.tc : Thread nD τ).loc main_arg2)) := a_v13 (launchContents m c) _ _ rfl rfl
theorem la_v14 : LA m c (Proc.devRef .tc main_v14) = val_main_v14 (F := Ideal) (m ((c.tc : Thread nD τ).loc main_arg1)) (m ((c.tc : Thread nD τ).loc main_arg2)) := a_v14 (launchContents m c) _ _ rfl rfl
theorem la_cst2 : LA m c (Proc.devRef .tc main_cst_2) = val_main_cst_2 (F := Ideal) := a_cst2 (launchContents m c)
theorem la_arg0 : LA m c (Proc.devRef .tc main_arg0) = (m ((c.tc : Thread nD τ).loc main_arg0)) := ka_arg0 (launchContents m c)
theorem la_arg3 : LA m c (Proc.devRef .tc main_arg3) = (m ((c.tc : Thread nD τ).loc main_arg3)) := ka_arg3 (launchContents m c)
theorem la_arg4 : LA m c (Proc.devRef .tc main_arg4) = (m ((c.tc : Thread nD τ).loc main_arg4)) := ka_arg4 (launchContents m c)
theorem la_arg5 : LA m c (Proc.devRef .tc main_arg5) = (m ((c.tc : Thread nD τ).loc main_arg5)) := ka_arg5 (launchContents m c)
theorem la_arg6 : LA m c (Proc.devRef .tc main_arg6) = (m ((c.tc : Thread nD τ).loc main_arg6)) := ka_arg6 (launchContents m c)

/-! ## After operations 20–22 -/

theorem lb_v15 : LB m c (Proc.devRef .tc main_v15) = val_main_v15 (F := Ideal) (m ((c.tc : Thread nD τ).loc main_arg1)) (m ((c.tc : Thread nD τ).loc main_arg2)) :=
  b_v15 (LA m c) _ _ (la_v13 m c) (la_v14 m c) (la_cst2 m c)
theorem lb_v3 : LB m c (Proc.devRef .tc main_v3) = val_main_v3 (F := Ideal) (m ((c.tc : Thread nD τ).loc main_arg1)) := (kb_v3 (LA m c)).trans (la_v3 m c)
theorem lb_v6 : LB m c (Proc.devRef .tc main_v6) = val_main_v6 (F := Ideal) (m ((c.tc : Thread nD τ).loc main_arg1)) := (kb_v6 (LA m c)).trans (la_v6 m c)
theorem lb_v8 : LB m c (Proc.devRef .tc main_v8) = val_main_v8 (F := Ideal) (m ((c.tc : Thread nD τ).loc main_arg2)) := (kb_v8 (LA m c)).trans (la_v8 m c)
theorem lb_arg0 : LB m c (Proc.devRef .tc main_arg0) = (m ((c.tc : Thread nD τ).loc main_arg0)) := (kb_arg0 (LA m c)).trans (la_arg0 m c)
theorem lb_arg3 : LB m c (Proc.devRef .tc main_arg3) = (m ((c.tc : Thread nD τ).loc main_arg3)) := (kb_arg3 (LA m c)).trans (la_arg3 m c)
theorem lb_arg4 : LB m c (Proc.devRef .tc main_arg4) = (m ((c.tc : Thread nD τ).loc main_arg4)) := (kb_arg4 (LA m c)).trans (la_arg4 m c)
theorem lb_arg5 : LB m c (Proc.devRef .tc main_arg5) = (m ((c.tc : Thread nD τ).loc main_arg5)) := (kb_arg5 (LA m c)).trans (la_arg5 m c)
theorem lb_arg6 : LB m c (Proc.devRef .tc main_arg6) = (m ((c.tc : Thread nD τ).loc main_arg6)) := (kb_arg6 (LA m c)).trans (la_arg6 m c)

/-! ## After operations 23–42 -/

theorem lc_v31 : LC m c (Proc.devRef .tc main_v31) = val_main_v31 (F := Ideal) (m ((c.tc : Thread nD τ).loc main_arg1)) (m ((c.tc : Thread nD τ).loc main_arg2)) :=
  c_v31 (LB m c) _ _ (lb_v3 m c) (lb_v6 m c) (lb_v8 m c) (lb_v15 m c)
theorem lc_v3 : LC m c (Proc.devRef .tc main_v3) = val_main_v3 (F := Ideal) (m ((c.tc : Thread nD τ).loc main_arg1)) := (kc_v3 (LB m c)).trans (lb_v3 m c)
theorem lc_v6 : LC m c (Proc.devRef .tc main_v6) = val_main_v6 (F := Ideal) (m ((c.tc : Thread nD τ).loc main_arg1)) := (kc_v6 (LB m c)).trans (lb_v6 m c)
theorem lc_arg0 : LC m c (Proc.devRef .tc main_arg0) = (m ((c.tc : Thread nD τ).loc main_arg0)) := (kc_arg0 (LB m c)).trans (lb_arg0 m c)
theorem lc_arg3 : LC m c (Proc.devRef .tc main_arg3) = (m ((c.tc : Thread nD τ).loc main_arg3)) := (kc_arg3 (LB m c)).trans (lb_arg3 m c)
theorem lc_arg4 : LC m c (Proc.devRef .tc main_arg4) = (m ((c.tc : Thread nD τ).loc main_arg4)) := (kc_arg4 (LB m c)).trans (lb_arg4 m c)
theorem lc_arg5 : LC m c (Proc.devRef .tc main_arg5) = (m ((c.tc : Thread nD τ).loc main_arg5)) := (kc_arg5 (LB m c)).trans (lb_arg5 m c)
theorem lc_arg6 : LC m c (Proc.devRef .tc main_arg6) = (m ((c.tc : Thread nD τ).loc main_arg6)) := (kc_arg6 (LB m c)).trans (lb_arg6 m c)

/-! ## After operations 43–62 -/

theorem ld_v48 : LD m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  d_v48 (LC m c) _ _ _ _ _ (lc_arg0 m c) (lc_arg3 m c) (lc_v31 m c) (lc_v3 m c) (lc_v6 m c) (lc_arg4 m c)
theorem ld_v31 : LD m c (Proc.devRef .tc main_v31) = val_main_v31 (F := Ideal) (m ((c.tc : Thread nD τ).loc main_arg1)) (m ((c.tc : Thread nD τ).loc main_arg2)) := (kd_v31 (LC m c)).trans (lc_v31 m c)
theorem ld_v3 : LD m c (Proc.devRef .tc main_v3) = val_main_v3 (F := Ideal) (m ((c.tc : Thread nD τ).loc main_arg1)) := (kd_v3 (LC m c)).trans (lc_v3 m c)
theorem ld_v6 : LD m c (Proc.devRef .tc main_v6) = val_main_v6 (F := Ideal) (m ((c.tc : Thread nD τ).loc main_arg1)) := (kd_v6 (LC m c)).trans (lc_v6 m c)
theorem ld_arg5 : LD m c (Proc.devRef .tc main_arg5) = (m ((c.tc : Thread nD τ).loc main_arg5)) := (kd_arg5 (LC m c)).trans (lc_arg5 m c)
theorem ld_arg6 : LD m c (Proc.devRef .tc main_arg6) = (m ((c.tc : Thread nD τ).loc main_arg6)) := (kd_arg6 (LC m c)).trans (lc_arg6 m c)

/-! ## After operations 63–85 -/

theorem le_v66 : LE m c (Proc.devRef .tc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  e_v66 (LD m c) _ _ _ _ _ _ _ (ld_v48 m c) (ld_arg5 m c) (ld_v31 m c) (ld_v3 m c) (ld_v6 m c) (ld_arg6 m c)
theorem le_v48 : LE m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (ke_v48 (LD m c)).trans (ld_v48 m c)

/-! ## The two results -/

/-- The fold of all hundred operations is the fold of the six stretches in order. -/
theorem after_ops : after (ops (F := Ideal)) (launchContents m c) = after (opsF (F := Ideal)) (LE m c) := by
  rw [ops_split, after_append, after_append, after_append, after_append, after_append]

/-- The first result: the reference's last stage of its launch arrays. -/
theorem ref_v67 : after (ops (F := Ideal)) (launchContents m c) (Proc.devRef .tc main_v67) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [after_ops]
  exact f_v67 (LE m c) _ _ _ _ _ _ _ (le_v66 m c)
/-- The second result: the first layer's stage. -/
theorem ref_v48 : after (ops (F := Ideal)) (launchContents m c) (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [after_ops]
  exact (kf_v48 (LE m c)).trans (le_v48 m c)

end Cert.ReferenceIdeal.Stretch

end
-- ==== Proof.RefArgs.lean ====
/-
  The reference writes none of its argument buffers.

  No operation of its hundred writes an argument's buffer, so after the whole fold each argument buffer holds what it
  held at launch.
-/
import proofs.«104175_j59768764891999_1_alg».proof.Proof.RefOps
import Idealize.ShloMosaic.Lib.StableHlo.Run
import Idealize.ShloMosaic.PureOps.Ideal

set_option maxRecDepth 16384

noncomputable section

namespace Cert.ReferenceIdeal.Stretch

open Cert.ReferenceIdeal Cert.ReferenceIdeal.Gen Cert.ReferenceIdeal.ValueP
open Idealize.ShloMosaic Idealize.ShloMosaic.TcCoe Idealize.SL.Sem Idealize.ShloMosaic.StableHlo

set_option maxHeartbeats 40000000 in
/-- After all the operations each argument buffer holds its launch contents. -/
theorem ref_arg (m : (ℓ : Loc nD τ sig) → Buf (Elt Ideal) ℓ) (c : Dev nD) :
    after (ops (F := Ideal)) (launchContents m c) (Proc.devRef .tc main_arg0) = m ((c.tc : Thread nD τ).loc main_arg0)
    ∧ after (ops (F := Ideal)) (launchContents m c) (Proc.devRef .tc main_arg1) = m ((c.tc : Thread nD τ).loc main_arg1)
    ∧ after (ops (F := Ideal)) (launchContents m c) (Proc.devRef .tc main_arg2) = m ((c.tc : Thread nD τ).loc main_arg2)
    ∧ after (ops (F := Ideal)) (launchContents m c) (Proc.devRef .tc main_arg3) = m ((c.tc : Thread nD τ).loc main_arg3)
    ∧ after (ops (F := Ideal)) (launchContents m c) (Proc.devRef .tc main_arg4) = m ((c.tc : Thread nD τ).loc main_arg4)
    ∧ after (ops (F := Ideal)) (launchContents m c) (Proc.devRef .tc main_arg5) = m ((c.tc : Thread nD τ).loc main_arg5)
    ∧ after (ops (F := Ideal)) (launchContents m c) (Proc.devRef .tc main_arg6) = m ((c.tc : Thread nD τ).loc main_arg6) :=
  ⟨by after_results_simp <;> rfl, by after_results_simp <;> rfl, by after_results_simp <;> rfl, by after_results_simp <;> rfl,
   by after_results_simp <;> rfl, by after_results_simp <;> rfl, by after_results_simp <;> rfl⟩

end Cert.ReferenceIdeal.Stretch

end
-- ==== Proof.LibHostRowMax.lean ====
/-
  A host maximum-reduce over the rows, read as the row's supremum.

  `stablehlo.reduce` with a maximum body over axis 1 of an [a, b] array, started from a value that is −∞, gives at row p
  the fold of the maximum from −∞ over the row's entries; −∞ is the bottom element of the extended reals and a finite
  supremum is by definition that fold, so the result is the supremum of the entries (p, k). Stated over symbolic extents,
  with the fact about the initial value as a hypothesis: applying it to a literal array unfolds nothing.
-/
import Idealize.ShloMosaic.PureOps.Ideal
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- The index a reduction over axis 1 of an [a, b] array reads for row `p` and position `k` is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- GENERAL LEMMA. The host's maximum-reduce over axis 1 of an [a, b] array of extended reals, from an initial value that
    is −∞, read at row `p`: the supremum over `k` of the entries `(p, k)`. -/
theorem reduce_max_axis1_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (hinit : init (Shape.Idx.first hu) = (⊥ : EReal)) (p : Fin a) :
    Host.reduce FloatOps.maximumf x init h' hu (ix1 p) = Finset.univ.sup fun k : Fin b => (x (ix2 p k) : EReal) := by
  rw [Host.reduce_eq_fold_single FloatOps.maximumf x init h' h hu, hinit]
  show Finset.fold max (⊥ : EReal) (x ∘ h.lift (ix1 p)) Finset.univ = _
  show Finset.univ.sup (x ∘ h.lift (ix1 p)) = _
  exact Finset.sup_congr rfl fun k _ => congrArg x (lift_row h p k)

end Cert.LibHostRowMax

end
-- ==== Proof.RefSoftmax.lean ====
/-
  The reference's log-softmax as the specification's.

  The row supremum is formed by a maximum-reduce from −∞ over the row and then, once more, the maximum with −∞; −∞ is the
  bottom element of the extended reals, so the second maximum changes nothing, and a fold of the maximum from the bottom
  element over the row is the row's supremum. The row sum of the exponentials is a host sum from zero. With these the
  stage is, entry by entry, s − log Σₖ exp (A (p, k) − rowMax A p) with s = A (p, q) − rowMax A p.
-/
import proofs.«104175_j59768764891999_1_alg».proof.Proof.RefRead
import proofs.«104175_j59768764891999_1_alg».proof.Proof.Spec
import proofs.«104175_j59768764891999_1_alg».proof.Proof.LibLaneMax
import proofs.«104175_j59768764891999_1_alg».proof.Proof.LibHostRowMax
import Idealize.ShloMosaic.Lib.ValueIdx
import Idealize.ShloMosaic.PureOps.Ideal.Laws

set_option maxRecDepth 16384

noncomputable section

namespace Cert.ReferenceIdeal.Softmax

open Cert.ReferenceIdeal Cert.ReferenceIdeal.Gen Cert.ReferenceIdeal.ReadP
open Idealize.ShloMosaic Idealize.ShloMosaic.TcCoe Idealize.ShloMosaic.ValueIdx Idealize.SL.Sem

variable (X : (⟨S100000x512, .f32⟩ : BufTy).Contents (Elt Ideal)) (E : (⟨S2x3200000, .i32⟩ : BufTy).Contents (Elt Ideal)) (EW : (⟨S3200000, .f32⟩ : BufTy).Contents (Elt Ideal))
  (W1 : (⟨S512x16, .f32⟩ : BufTy).Contents (Elt Ideal)) (B1 : (⟨S16, .f32⟩ : BufTy).Contents (Elt Ideal)) (W2 : (⟨S16x10, .f32⟩ : BufTy).Contents (Elt Ideal)) (B2 : (⟨S10, .f32⟩ : BufTy).Contents (Elt Ideal))

/-! ## The log-softmax -/

/-- The row supremum as the reference forms it: a maximum-reduce from −∞ over the row, then once more the maximum
    with −∞. -/
theorem rowmax_eq (p : Fin 100000) :
    val_main_call2_v2 (F := Ideal) X E EW W1 B1 W2 B2 (ix1 p)
      = Cert.Spec.rowMax (M := 100000) (N := 10) (val_main_v66 (F := Ideal) X E EW W1 B1 W2 B2) p := by
  rw [val_main_call2_v2_apply, val_main_call2_v1_apply, val_main_call2_cst_0_apply, Ideal.maximumf_def, Ideal.ofBits_def,
    Cert.LibLaneMax.ninf, max_eq_right bot_le]
  unfold val_main_call2_v0
  exact Cert.LibHostRowMax.reduce_max_axis1_apply (val_main_v66 (F := Ideal) X E EW W1 B1 W2 B2) (val_main_call2_cst (F := Ideal))
    reducesTo_S100000x10_S100000_d1 (by decide) h_S_ Cert.LibLaneMax.ninf p

/-- The shifted logits. -/
theorem shifted_eq (p : Fin 100000) (q : Fin 10) :
    val_main_call2_v5 (F := Ideal) X E EW W1 B1 W2 B2 (ix2 p q)
      = val_main_v66 (F := Ideal) X E EW W1 B1 W2 B2 (ix2 p q)
        - Cert.Spec.rowMax (M := 100000) (N := 10) (val_main_v66 (F := Ideal) X E EW W1 B1 W2 B2) p := by
  rw [val_main_call2_v5_apply, val_main_call2_v4_apply, val_main_call2_v3_apply]
  have e : idx_main_call2_v3 (idx_main_call2_v4 (ix2 p q)) = ix1 p :=
    funext fun a => by match a with | ⟨0, _⟩ => rfl
  rw [e, rowmax_eq, Ideal.subf_def]

/-- The row sums of the exponentials of the shifted logits. -/
theorem expsum_eq (p : Fin 100000) :
    val_main_call2_v7 (F := Ideal) X E EW W1 B1 W2 B2 (ix1 p)
      = ∑ k : Fin 10, Ideal.exp (val_main_v66 (F := Ideal) X E EW W1 B1 W2 B2 (ix2 p k)
          - Cert.Spec.rowMax (M := 100000) (N := 10) (val_main_v66 (F := Ideal) X E EW W1 B1 W2 B2) p) := by
  rw [val_main_call2_v7_apply, val_main_call2_cst_1_apply, Ideal.ofBits_def, Ideal.ofBits_zero_f32, zero_add]
  refine Finset.sum_congr rfl fun k _ => ?_
  have e : idx_main_call2_v7 (ix1 p) k = ix2 p k :=
    funext fun a => by match a with | ⟨0, _⟩ => rfl | ⟨1, _⟩ => rfl
  rw [e, val_main_call2_v6_apply, shifted_eq, Ideal.hostUnary_exp_def]

/-- The reference's last stage is the row-wise log-softmax of its logits. -/
theorem v67_eq : val_main_v67 (F := Ideal) X E EW W1 B1 W2 B2
    = Cert.Spec.lsm (M := 100000) (N := 10) (val_main_v66 (F := Ideal) X E EW W1 B1 W2 B2) := by
  funext i
  obtain ⟨p, q, rfl⟩ : ∃ (p : Fin 100000) (q : Fin 10), i = ix2 p q := ⟨i 0, i 1, eq_ix2 i⟩
  rw [val_main_v67_apply, val_main_call2_v10_apply, val_main_call2_v9_apply, val_main_call2_v8_apply]
  have e : idx_main_call2_v8 (idx_main_call2_v10 (ix2 p q)) = ix1 p :=
    funext fun a => by match a with | ⟨0, _⟩ => rfl
  rw [e, shifted_eq, expsum_eq, Ideal.subf_def, Ideal.hostUnary_log_def]
  generalize val_main_v66 (F := Ideal) X E EW W1 B1 W2 B2 = A
  rfl

end Cert.ReferenceIdeal.Softmax

end
-- ==== Proof.lean ====
/-
  A two-layer graph-convolution network: the kernel program against its reference, over the extended reals.

  Both programs compute, from node features X, an edge list with weights, and two weight matrices with biases:
  the edge norm (self-loops appended, the degree by scatter-add, the inverse root of the degree where it is positive),
  H = agg (X · W₁) + b₁, the logits agg (relu H · W₂) + b₂ and their row-wise log-softmax, where agg gathers rows at the
  edges' sources, scales them by the edge norm and scatter-adds them at the targets. The reference does all of it with
  host operations. The kernel program keeps the host's aggregation and computes the three dense steps in pipelined
  regions, a block of rows per grid point: X · W₁ in twenty blocks, relu H · W₂ and the log-softmax in ten.

  The two results are equal because each dense step of the kernel program is the reference's: an entry of a matrix
  product and of a row-wise log-softmax reads one row of its operand, so the blocks of rows tile the whole-array
  functions; rounding to a narrower float format is the identity on the extended reals; a product into a zero
  accumulator and the host's product are the same contraction sum; and the one extra maximum with −∞ that the
  reference's log-softmax takes is the identity, −∞ being the bottom element. The host operations around the regions
  are the reference's own, so they are carried along unopened. No step uses a law that fails at the infinities:
  the finiteness of the inputs is not needed.
-/
import proofs.«104175_j59768764891999_1_alg».proof.Defs
import proofs.«104175_j59768764891999_1_alg».proof.Proof.Gen.Kernel
import proofs.«104175_j59768764891999_1_alg».proof.Proof.Gen.Kernel.Skeleton
import proofs.«104175_j59768764891999_1_alg».proof.Proof.Gen.Kernel.Launch
import proofs.«104175_j59768764891999_1_alg».proof.Proof.Gen.Kernel.Points
import proofs.«104175_j59768764891999_1_alg».proof.Proof.Gen.Kernel.Frame
import proofs.«104175_j59768764891999_1_alg».proof.Proof.Gen.KernelIdeal
import proofs.«104175_j59768764891999_1_alg».proof.Proof.Gen.KernelIdeal.Skeleton
import proofs.«104175_j59768764891999_1_alg».proof.Proof.Gen.KernelIdeal.Launch
import proofs.«104175_j59768764891999_1_alg».proof.Proof.Gen.KernelIdeal.Points
import proofs.«104175_j59768764891999_1_alg».proof.Proof.Gen.KernelIdeal.Frame
import proofs.«104175_j59768764891999_1_alg».proof.Proof.Gen.ReferenceIdeal
import proofs.«104175_j59768764891999_1_alg».proof.Proof.Gen.Pre_finite_inputs
import proofs.«104175_j59768764891999_1_alg».proof.Proof.KernelRun
import proofs.«104175_j59768764891999_1_alg».proof.Proof.KernelValue
import proofs.«104175_j59768764891999_1_alg».proof.Proof.RefOps
import proofs.«104175_j59768764891999_1_alg».proof.Proof.RefRead
import proofs.«104175_j59768764891999_1_alg».proof.Proof.RefValue
import proofs.«104175_j59768764891999_1_alg».proof.Proof.RefArgs
import proofs.«104175_j59768764891999_1_alg».proof.Proof.RefSoftmax
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel program runs and gives its argument arrays back. -/
theorem frame_k : Cert.frame_Kernel := fun m ρ _ => Cert.Kernel.Gen.frame m ρ
/-- So does its reading on the extended reals. -/
theorem frame_ki : Cert.frame_KernelIdeal := fun m ρ _ => Cert.KernelIdeal.Gen.frame m ρ

/-- The reference runs and gives its argument arrays back. -/
theorem frame_ri : Cert.frame_ReferenceIdeal := fun m ρ _ =>
  (θ_run Cert.ReferenceIdeal.defs _ _).mono
    (fun _ h c =>
      ⟨(h c _).trans (Cert.ReferenceIdeal.Stretch.ref_arg m c).1, (h c _).trans (Cert.ReferenceIdeal.Stretch.ref_arg m c).2.1, (h c _).trans (Cert.ReferenceIdeal.Stretch.ref_arg m c).2.2.1,
       (h c _).trans (Cert.ReferenceIdeal.Stretch.ref_arg m c).2.2.2.1, (h c _).trans (Cert.ReferenceIdeal.Stretch.ref_arg m c).2.2.2.2.1,
       (h c _).trans (Cert.ReferenceIdeal.Stretch.ref_arg m c).2.2.2.2.2.1, (h c _).trans (Cert.ReferenceIdeal.Stretch.ref_arg m c).2.2.2.2.2.2⟩)
    (Cert.ReferenceIdeal.ValueP.run_all (F := Ideal) m ρ)

/-- Nothing was rewritten when the kernel program was read on the extended reals. -/
theorem preserves : Cert.preserves_Kernel_KernelIdeal := trivial

/-- From memories that agree on the arguments both programs end with the row-wise log-softmax of the reference's logits
    and with the reference's first layer, as functions of the argument arrays. -/
theorem algebraic : Cert.algebraic_KernelIdeal_ReferenceIdeal := by
  intro m ρ m' ρ' _ hagree
  refine ⟨fun c => Cert.Spec.lsm (M := 100000) (N := 10) (Cert.ReferenceIdeal.ReadP.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => Cert.ReferenceIdeal.ReadP.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Values.w8_v66 m ρ c),
        (h c).2.1.trans (Cert.KernelIdeal.Values.w8_v48 m ρ c), (h c).2.2⟩)
      (Cert.KernelIdeal.LastRun.run_last (F := Ideal) m ρ)
  · refine (θ_run Cert.ReferenceIdeal.defs _ _).mono (fun _ h c => ?_)
      (Cert.ReferenceIdeal.ValueP.run_all (F := Ideal) m' ρ')
    obtain ⟨e0, e1, e2, e3, e4, e5, e6⟩ := hagree c
    refine ⟨?_, ?_, (h c _).trans (Cert.ReferenceIdeal.Stretch.ref_arg m' c).1, (h c _).trans (Cert.ReferenceIdeal.Stretch.ref_arg m' c).2.1, (h c _).trans (Cert.ReferenceIdeal.Stretch.ref_arg m' c).2.2.1,
       (h c _).trans (Cert.ReferenceIdeal.Stretch.ref_arg m' c).2.2.2.1, (h c _).trans (Cert.ReferenceIdeal.Stretch.ref_arg m' c).2.2.2.2.1,
       (h c _).trans (Cert.ReferenceIdeal.Stretch.ref_arg m' c).2.2.2.2.2.1, (h c _).trans (Cert.ReferenceIdeal.Stretch.ref_arg m' c).2.2.2.2.2.2⟩
    · refine (h c _).trans ((Cert.ReferenceIdeal.Stretch.ref_v67 m' c).trans ?_)
      rw [Cert.ReferenceIdeal.Softmax.v67_eq, e0, e1, e2, e3, e4, e5, e6]
    · refine (h c _).trans ((Cert.ReferenceIdeal.Stretch.ref_v48 m' c).trans ?_)
      rw [e0, e1, e2, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
